-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30x32x144x192 : Shape := ⟨4, ![30, 32, 144, 192]⟩
abbrev S30x32x144x144 : Shape := ⟨4, ![30, 32, 144, 144]⟩
abbrev S192x576 : Shape := ⟨2, ![192, 576]⟩
abbrev S576 : Shape := ⟨1, ![576]⟩
abbrev S3312x32x6 : Shape := ⟨3, ![3312, 32, 6]⟩
abbrev S192x192 : Shape := ⟨2, ![192, 192]⟩
abbrev S192 : Shape := ⟨1, ![192]⟩
abbrev S144x144 : Shape := ⟨2, ![144, 144]⟩
abbrev S_ : Shape := ⟨0, ![]⟩

class Facts : Prop where
  bcast_S_S30x32x144x192 : S_.BroadcastsInDim S30x32x144x192 (![] : Fin 0 → Fin S30x32x144x192.rank)
  reducesTo_S30x32x144x192_S_d0_1_2_3 : S30x32x144x192.ReducesTo [0, 1, 2, 3] S_
  h_S_ : 0 < S_.numel
  bcast_S_S30x32x144x144 : S_.BroadcastsInDim S30x32x144x144 (![] : Fin 0 → Fin S30x32x144x144.rank)
  reducesTo_S30x32x144x144_S_d0_1_2_3 : S30x32x144x144.ReducesTo [0, 1, 2, 3] S_
  bcast_S_S192x576 : S_.BroadcastsInDim S192x576 (![] : Fin 0 → Fin S192x576.rank)
  reducesTo_S192x576_S_d0_1 : S192x576.ReducesTo [0, 1] S_
  bcast_S_S576 : S_.BroadcastsInDim S576 (![] : Fin 0 → Fin S576.rank)
  reducesTo_S576_S_d0 : S576.ReducesTo [0] S_
  bcast_S_S3312x32x6 : S_.BroadcastsInDim S3312x32x6 (![] : Fin 0 → Fin S3312x32x6.rank)
  reducesTo_S3312x32x6_S_d0_1_2 : S3312x32x6.ReducesTo [0, 1, 2] S_
  bcast_S_S192x192 : S_.BroadcastsInDim S192x192 (![] : Fin 0 → Fin S192x192.rank)
  reducesTo_S192x192_S_d0_1 : S192x192.ReducesTo [0, 1] S_
  bcast_S_S192 : S_.BroadcastsInDim S192 (![] : Fin 0 → Fin S192.rank)
  reducesTo_S192_S_d0 : S192.ReducesTo [0] S_

variable [Facts]

def fn_part1 {F : FTy → Type} [FloatOps F] (main_arg4 : FVec F S3312x32x6 .f32) (main_arg5 : FVec F S192x192 .f32) (main_arg6 : FVec F S192 .f32) (main_v13 : IVec S_ 1) (main_v16 : IVec S576 1) : IVec S_ 1 :=
  let main_c_5 : IVec S_ 1 := constantI S_ 1 1#1
  let main_v17 : IVec S_ 1 := (fun x v => Host.reduce IntOp.andi x v reducesTo_S576_S_d0 h_S_) main_v16 main_c_5
  let main_v18 : IVec S_ 1 := andi main_v13 main_v17
  let main_v19 : FVec F S3312x32x6 .f32 := Host.absf main_arg4
  let main_cst_6 : FVec F S_ .f32 := constant S_ .f32 0x7F800000#32
  let main_v20 : FVec F S3312x32x6 .f32 := broadcastInDim S3312x32x6 ![] bcast_S_S3312x32x6 main_cst_6
  let main_v21 : IVec S3312x32x6 1 := cmpf .olt main_v19 main_v20
  let main_c_7 : IVec S_ 1 := constantI S_ 1 1#1
  let main_v22 : IVec S_ 1 := (fun x v => Host.reduce IntOp.andi x v reducesTo_S3312x32x6_S_d0_1_2 h_S_) main_v21 main_c_7
  let main_v23 : IVec S_ 1 := andi main_v18 main_v22
  let main_v24 : FVec F S192x192 .f32 := Host.absf main_arg5
  let main_cst_8 : FVec F S_ .f32 := constant S_ .f32 0x7F800000#32
  let main_v25 : FVec F S192x192 .f32 := broadcastInDim S192x192 ![] bcast_S_S192x192 main_cst_8
  let main_v26 : IVec S192x192 1 := cmpf .olt main_v24 main_v25
  let main_c_9 : IVec S_ 1 := constantI S_ 1 1#1
  let main_v27 : IVec S_ 1 := (fun x v => Host.reduce IntOp.andi x v reducesTo_S192x192_S_d0_1 h_S_) main_v26 main_c_9
  let main_v28 : IVec S_ 1 := andi main_v23 main_v27
  let main_v29 : FVec F S192 .f32 := Host.absf main_arg6
  let main_cst_10 : FVec F S_ .f32 := constant S_ .f32 0x7F800000#32
  let main_v30 : FVec F S192 .f32 := broadcastInDim S192 ![] bcast_S_S192 main_cst_10
  let main_v31 : IVec S192 1 := cmpf .olt main_v29 main_v30
  let main_c_11 : IVec S_ 1 := constantI S_ 1 1#1
  let main_v32 : IVec S_ 1 := (fun x v => Host.reduce IntOp.andi x v reducesTo_S192_S_d0 h_S_) main_v31 main_c_11
  let main_v33 : IVec S_ 1 := andi main_v28 main_v32
  main_v33

def fn {F : FTy → Type} [FloatOps F] (main_arg0 : FVec F S30x32x144x192 .f32) (main_arg1 : FVec F S30x32x144x144 .f32) (main_arg2 : FVec F S192x576 .f32) (main_arg3 : FVec F S576 .f32) (main_arg4 : FVec F S3312x32x6 .f32) (main_arg5 : FVec F S192x192 .f32) (main_arg6 : FVec F S192 .f32) (main_arg7 : IVec S144x144 32) : IVec S_ 1 :=
  let main_v0 : FVec F S30x32x144x192 .f32 := Host.absf main_arg0
  let main_cst : FVec F S_ .f32 := constant S_ .f32 0x7F800000#32
  let main_v1 : FVec F S30x32x144x192 .f32 := broadcastInDim S30x32x144x192 ![] bcast_S_S30x32x144x192 main_cst
  let main_v2 : IVec S30x32x144x192 1 := cmpf .olt main_v0 main_v1
  let main_c : IVec S_ 1 := constantI S_ 1 1#1
  let main_v3 : IVec S_ 1 := (fun x v => Host.reduce IntOp.andi x v reducesTo_S30x32x144x192_S_d0_1_2_3 h_S_) main_v2 main_c
  let main_v4 : FVec F S30x32x144x144 .f32 := Host.absf main_arg1
  let main_cst_0 : FVec F S_ .f32 := constant S_ .f32 0x7F800000#32
  let main_v5 : FVec F S30x32x144x144 .f32 := broadcastInDim S30x32x144x144 ![] bcast_S_S30x32x144x144 main_cst_0
  let main_v6 : IVec S30x32x144x144 1 := cmpf .olt main_v4 main_v5
  let main_c_1 : IVec S_ 1 := constantI S_ 1 1#1
  let main_v7 : IVec S_ 1 := (fun x v => Host.reduce IntOp.andi x v reducesTo_S30x32x144x144_S_d0_1_2_3 h_S_) main_v6 main_c_1
  let main_v8 : IVec S_ 1 := andi main_v3 main_v7
  let main_v9 : FVec F S192x576 .f32 := Host.absf main_arg2
  let main_cst_2 : FVec F S_ .f32 := constant S_ .f32 0x7F800000#32
  let main_v10 : FVec F S192x576 .f32 := broadcastInDim S192x576 ![] bcast_S_S192x576 main_cst_2
  let main_v11 : IVec S192x576 1 := cmpf .olt main_v9 main_v10
  let main_c_3 : IVec S_ 1 := constantI S_ 1 1#1
  let main_v12 : IVec S_ 1 := (fun x v => Host.reduce IntOp.andi x v reducesTo_S192x576_S_d0_1 h_S_) main_v11 main_c_3
  let main_v13 : IVec S_ 1 := andi main_v8 main_v12
  let main_v14 : FVec F S576 .f32 := Host.absf main_arg3
  let main_cst_4 : FVec F S_ .f32 := constant S_ .f32 0x7F800000#32
  let main_v15 : FVec F S576 .f32 := broadcastInDim S576 ![] bcast_S_S576 main_cst_4
  let main_v16 : IVec S576 1 := cmpf .olt main_v14 main_v15
  fn_part1 (F := F) main_arg4 main_arg5 main_arg6 main_v13 main_v16
-- ==== Kernel.lean ====
abbrev S30x32x144x192 : Shape := ⟨4, ![30, 32, 144, 192]⟩
abbrev S30x32x144x144 : Shape := ⟨4, ![30, 32, 144, 144]⟩
abbrev S192x576 : Shape := ⟨2, ![192, 576]⟩
abbrev S576 : Shape := ⟨1, ![576]⟩
abbrev S3312x32x6 : Shape := ⟨3, ![3312, 32, 6]⟩
abbrev S192x192 : Shape := ⟨2, ![192, 192]⟩
abbrev S192 : Shape := ⟨1, ![192]⟩
abbrev S144x144 : Shape := ⟨2, ![144, 144]⟩
abbrev S20736 : Shape := ⟨1, ![20736]⟩
abbrev S_ : Shape := ⟨0, ![]⟩
abbrev S20736x1 : Shape := ⟨2, ![20736, 1]⟩
abbrev S20736x32x6 : Shape := ⟨3, ![20736, 32, 6]⟩
abbrev S144x144x32x6 : Shape := ⟨4, ![144, 144, 32, 6]⟩
abbrev S32x6x144x144 : Shape := ⟨4, ![32, 6, 144, 144]⟩
abbrev S1x16x144x192 : Shape := ⟨4, ![1, 16, 144, 192]⟩
abbrev S1x16x144x144 : Shape := ⟨4, ![1, 16, 144, 144]⟩
abbrev S16x6x144x144 : Shape := ⟨4, ![16, 6, 144, 144]⟩
abbrev S16x144x192 : Shape := ⟨3, ![16, 144, 192]⟩
abbrev S2304x192 : Shape := ⟨2, ![2304, 192]⟩
abbrev S2304x576 : Shape := ⟨2, ![2304, 576]⟩
abbrev S16x144x576 : Shape := ⟨3, ![16, 144, 576]⟩
abbrev S1x1x576 : Shape := ⟨3, ![1, 1, 576]⟩
abbrev S16x144x144 : Shape := ⟨3, ![16, 144, 144]⟩
abbrev S16x144x32 : Shape := ⟨3, ![16, 144, 32]⟩
abbrev S16x1x144x144 : Shape := ⟨4, ![16, 1, 144, 144]⟩
abbrev S16x144 : Shape := ⟨2, ![16, 144]⟩
abbrev S16x144x1 : Shape := ⟨3, ![16, 144, 1]⟩
abbrev S1x1x192 : Shape := ⟨3, ![1, 1, 192]⟩

abbrev nBuf : Space → Nat
  | .hbm => 22
  | .vmem => 12
  | .smem => 0
  | _ => 0

abbrev bufTy : (tb : Table) → Fin (tcTables nBuf tb) → BufTy
  | .hbm, ⟨0, _⟩ => ⟨S30x32x144x192, .f32⟩
  | .hbm, ⟨1, _⟩ => ⟨S30x32x144x144, .f32⟩
  | .hbm, ⟨2, _⟩ => ⟨S192x576, .f32⟩
  | .hbm, ⟨3, _⟩ => ⟨S576, .f32⟩
  | .hbm, ⟨4, _⟩ => ⟨S3312x32x6, .f32⟩
  | .hbm, ⟨5, _⟩ => ⟨S192x192, .f32⟩
  | .hbm, ⟨6, _⟩ => ⟨S192, .f32⟩
  | .hbm, ⟨7, _⟩ => ⟨S144x144, .i32⟩
  | .hbm, ⟨8, _⟩ => ⟨S20736, .i32⟩
  | .hbm, ⟨9, _⟩ => ⟨S_, .i32⟩
  | .hbm, ⟨10, _⟩ => ⟨S20736, .i32⟩
  | .hbm, ⟨11, _⟩ => ⟨S20736, .i1⟩
  | .hbm, ⟨12, _⟩ => ⟨S_, .i32⟩
  | .hbm, ⟨13, _⟩ => ⟨S20736, .i32⟩
  | .hbm, ⟨14, _⟩ => ⟨S20736, .i32⟩
  | .hbm, ⟨15, _⟩ => ⟨S20736, .i32⟩
  | .hbm, ⟨16, _⟩ => ⟨S20736x1, .i32⟩
  | .hbm, ⟨17, _⟩ => ⟨S20736x32x6, .f32⟩
  | .hbm, ⟨18, _⟩ => ⟨S144x144x32x6, .f32⟩
  | .hbm, ⟨19, _⟩ => ⟨S32x6x144x144, .f32⟩
  | .hbm, ⟨20, _⟩ => ⟨S32x6x144x144, .bf16⟩
  | .hbm, ⟨21, _⟩ => ⟨S30x32x144x192, .f32⟩
  | .local _ .vmem, ⟨0, _⟩ => ⟨S1x16x144x192, .f32⟩
  | .local _ .vmem, ⟨1, _⟩ => ⟨S1x16x144x192, .f32⟩
  | .local _ .vmem, ⟨2, _⟩ => ⟨S1x16x144x144, .f32⟩
  | .local _ .vmem, ⟨3, _⟩ => ⟨S1x16x144x144, .f32⟩
  | .local _ .vmem, ⟨4, _⟩ => ⟨S16x6x144x144, .bf16⟩
  | .local _ .vmem, ⟨5, _⟩ => ⟨S16x6x144x144, .bf16⟩
  | .local _ .vmem, ⟨6, _⟩ => ⟨S192x576, .f32⟩
  | .local _ .vmem, ⟨7, _⟩ => ⟨S576, .f32⟩
  | .local _ .vmem, ⟨8, _⟩ => ⟨S192x192, .f32⟩
  | .local _ .vmem, ⟨9, _⟩ => ⟨S192, .f32⟩
  | .local _ .vmem, ⟨10, _⟩ => ⟨S1x16x144x192, .f32⟩
  | .local _ .vmem, ⟨11, _⟩ => ⟨S1x16x144x192, .f32⟩
  | _, _ => ⟨S30x32x144x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 30], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c30_i32 : BitVec 32 := 30#32
  let c0_i32 : BitVec 32 := 0#32
  let v0 : BitVec 1 := Scalar.cmpi .eq c30_i32 c0_i32
  let c1_i32 : BitVec 32 := 1#32
  let v1 : BitVec 32 := Scalar.select v0 c1_i32 c30_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![v9.toNat, arg0.toNat, c0_i32_3.toNat, c0_i32_4.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x16x144x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x144x144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x6x144x144 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S192x576 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S576 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S192x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x16x144x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  shapeCasts_S144x144_S20736 : S144x144.ShapeCasts S20736
  bcast_S_S20736 : S_.BroadcastsInDim S20736 (![] : Fin 0 → Fin S20736.rank)
  bcast_S20736_S20736x1_0 : S20736.BroadcastsInDim S20736x1 (![0] : Fin 1 → Fin S20736x1.rank)
  shapeCasts_S20736x32x6_S144x144x32x6 : S20736x32x6.ShapeCasts S144x144x32x6
  transposes_S144x144x32x6_S32x6x144x144_2_3_0_1 : S144x144x32x6.Transposes [2, 3, 0, 1] S32x6x144x144
  bitsLt_bf16_f32 : FTy.bits .bf16 < FTy.bits .f32
  inb_S1x16x144x192_S1x16x144x192_0_0_0_0 : ∀ a, (![0, 0, 0, 0] : Fin 4 → Nat) a + S1x16x144x192.size a ≤ S1x16x144x192.size a
  h_S1x16x144x192 : 0 < S1x16x144x192.numel
  shapeCasts_S1x16x144x192_S16x144x192 : S1x16x144x192.ShapeCasts S16x144x192
  inb_S192x576_S192x576_0_0 : ∀ a, (![0, 0] : Fin 2 → Nat) a + S192x576.size a ≤ S192x576.size a
  h_S192x576 : 0 < S192x576.numel
  shapeCasts_S16x144x192_S2304x192 : S16x144x192.ShapeCasts S2304x192
  shapeCasts_S2304x576_S16x144x576 : S2304x576.ShapeCasts S16x144x576
  inb_S576_S576_0 : ∀ a, (![0] : Fin 1 → Nat) a + S576.size a ≤ S576.size a
  h_S576 : 0 < S576.numel
  shapeCasts_S576_S1x1x576 : S576.ShapeCasts S1x1x576
  broadcasts_S1x1x576_S16x144x576 : S1x1x576.Broadcasts S16x144x576
  slices_S16x144x576_o0_0_0_S16x144x192 : S16x144x576.Slices ![0, 0, 0] S16x144x192
  slices_S16x144x576_o0_0_192_S16x144x192 : S16x144x576.Slices ![0, 0, 192] S16x144x192
  slices_S16x144x576_o0_0_384_S16x144x192 : S16x144x576.Slices ![0, 0, 384] S16x144x192
  inb_S1x16x144x144_S1x16x144x144_0_0_0_0 : ∀ a, (![0, 0, 0, 0] : Fin 4 → Nat) a + S1x16x144x144.size a ≤ S1x16x144x144.size a
  h_S1x16x144x144 : 0 < S1x16x144x144.numel
  shapeCasts_S1x16x144x144_S16x144x144 : S1x16x144x144.ShapeCasts S16x144x144
  slices_S16x144x192_o0_0_0_S16x144x32 : S16x144x192.Slices ![0, 0, 0] S16x144x32
  inb_S16x6x144x144_S16x1x144x144_0_0_0_0 : ∀ a, (![0, 0, 0, 0] : Fin 4 → Nat) a + S16x1x144x144.size a ≤ S16x6x144x144.size a
  h_S16x1x144x144 : 0 < S16x1x144x144.numel
  shapeCasts_S16x1x144x144_S16x144x144 : S16x1x144x144.ShapeCasts S16x144x144
  reduces_S16x144x144_S16x144 : S16x144x144.Reduces [2] S16x144
  shapeCasts_S16x144_S16x144x1 : S16x144.ShapeCasts S16x144x1
  broadcasts_S16x144x1_S16x144x144 : S16x144x1.Broadcasts S16x144x144
  slices_S16x144x192_o0_0_32_S16x144x32 : S16x144x192.Slices ![0, 0, 32] S16x144x32
  inb_S16x6x144x144_S16x1x144x144_0_1_0_0 : ∀ a, (![0, 1, 0, 0] : Fin 4 → Nat) a + S16x1x144x144.size a ≤ S16x6x144x144.size a
  slices_S16x144x192_o0_0_64_S16x144x32 : S16x144x192.Slices ![0, 0, 64] S16x144x32
  inb_S16x6x144x144_S16x1x144x144_0_2_0_0 : ∀ a, (![0, 2, 0, 0] : Fin 4 → Nat) a + S16x1x144x144.size a ≤ S16x6x144x144.size a
  slices_S16x144x192_o0_0_96_S16x144x32 : S16x144x192.Slices ![0, 0, 96] S16x144x32
  inb_S16x6x144x144_S16x1x144x144_0_3_0_0 : ∀ a, (![0, 3, 0, 0] : Fin 4 → Nat) a + S16x1x144x144.size a ≤ S16x6x144x144.size a
  slices_S16x144x192_o0_0_128_S16x144x32 : S16x144x192.Slices ![0, 0, 128] S16x144x32
  inb_S16x6x144x144_S16x1x144x144_0_4_0_0 : ∀ a, (![0, 4, 0, 0] : Fin 4 → Nat) a + S16x1x144x144.size a ≤ S16x6x144x144.size a
  slices_S16x144x192_o0_0_160_S16x144x32 : S16x144x192.Slices ![0, 0, 160] S16x144x32
  inb_S16x6x144x144_S16x1x144x144_0_5_0_0 : ∀ a, (![0, 5, 0, 0] : Fin 4 → Nat) a + S16x1x144x144.size a ≤ S16x6x144x144.size a
  concatenates_S16x144x32_S16x144x32_S16x144x32_S16x144x32_S16x144x32_S16x144x32_S16x144x192_d2 : Shape.Concatenates [S16x144x32, S16x144x32, S16x144x32, S16x144x32, S16x144x32, S16x144x32] S16x144x192 2
  inb_S192x192_S192x192_0_0 : ∀ a, (![0, 0] : Fin 2 → Nat) a + S192x192.size a ≤ S192x192.size a
  h_S192x192 : 0 < S192x192.numel
  shapeCasts_S2304x192_S16x144x192 : S2304x192.ShapeCasts S16x144x192
  inb_S192_S192_0 : ∀ a, (![0] : Fin 1 → Nat) a + S192.size a ≤ S192.size a
  h_S192 : 0 < S192.numel
  shapeCasts_S192_S1x1x192 : S192.ShapeCasts S1x1x192
  broadcasts_S1x1x192_S16x144x192 : S1x1x192.Broadcasts S16x144x192
  shapeCasts_S16x144x192_S1x16x144x192 : S16x144x192.ShapeCasts S1x16x144x192
  gather_S3312x32x6_S20736x1_S20736x32x6_12_0_n_n_0_1_1326_wf : GatherDims.WF S3312x32x6 S20736x1 S20736x32x6 [1, 2] [0] [] [0] [] 1 ![1, 32, 6]
  dot_S2304x192_S192x576_S2304x576_1_0_0_1_n_n_wf : DotDims.WF S2304x192 S192x576 S2304x576 [1] [0] [0] [1] [] []
  dot_S16x144x32_S16x144x32_S16x144x144_2_2_1_1_0_0_wf : DotDims.WF S16x144x32 S16x144x32 S16x144x144 [2] [2] [1] [1] [0] [0]
  dot_S16x144x144_S16x144x32_S16x144x32_2_1_1_2_0_0_wf : DotDims.WF S16x144x144 S16x144x32 S16x144x32 [2] [1] [1] [2] [0] [0]
  dot_S2304x192_S192x192_S2304x192_1_0_0_1_n_n_wf : DotDims.WF S2304x192 S192x192 S2304x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x144x192.size a ≤ S30x32x144x192.size a
  hwx0_0 : ∀ i : grid0.Coords, EltTy.bits .f32 = 32 ∨ (Rect.block (s := S30x32x144x192) S1x16x144x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x144x144.size a ≤ S30x32x144x144.size a
  hwx0_1 : ∀ i : grid0.Coords, EltTy.bits .f32 = 32 ∨ (Rect.block (s := S30x32x144x144) S1x16x144x144.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x6x144x144.size a ≤ S32x6x144x144.size a
  hwx0_2 : ∀ i : grid0.Coords, EltTy.bits .bf16 = 32 ∨ (Rect.block (s := S32x6x144x144) S16x6x144x144.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x576.size a ≤ S192x576.size a
  hwx0_3 : ∀ i : grid0.Coords, EltTy.bits .f32 = 32 ∨ (Rect.block (s := S192x576) S192x576.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S576.size a ≤ S576.size a
  hwx0_4 : ∀ i : grid0.Coords, EltTy.bits .f32 = 32 ∨ (Rect.block (s := S576) S576.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S192x192.size a ≤ S192x192.size a
  hwx0_5 : ∀ i : grid0.Coords, EltTy.bits .f32 = 32 ∨ (Rect.block (s := S192x192) S192x192.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S192.size a ≤ S192.size a
  hwx0_6 : ∀ i : grid0.Coords, EltTy.bits .f32 = 32 ∨ (Rect.block (s := S192) S192.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x144x192.size a ≤ S30x32x144x192.size a
  hwx0_7 : ∀ i : grid0.Coords, EltTy.bits .f32 = 32 ∨ (Rect.block (s := S30x32x144x192) S1x16x144x192.size (cc0_transform_7 i) (hinb0_7 i)).WholeWords (EltTy.packing .f32)

variable [Facts₀]

def gather_S3312x32x6_S20736x1_S20736x32x6_12_0_n_n_0_1_1326 : GatherDims S3312x32x6 S20736x1 S20736x32x6 where
  offsetDims := [1, 2]
  collapsedSliceDims := [0]
  operandBatchingDims := []
  startIndicesBatchingDims := []
  startIndexMap := [0]
  indexVectorDim := 1
  sliceSizes := ![1, 32, 6]
  wf := gather_S3312x32x6_S20736x1_S20736x32x6_12_0_n_n_0_1_1326_wf
def dot_S2304x192_S192x576_S2304x576_1_0_0_1_n_n : DotDims S2304x192 S192x576 S2304x576 where
  lhsContracting := [1]
  rhsContracting := [0]
  lhsNonContracting := [0]
  rhsNonContracting := [1]
  lhsBatch := []
  rhsBatch := []
  wf := dot_S2304x192_S192x576_S2304x576_1_0_0_1_n_n_wf
def dot_S16x144x32_S16x144x32_S16x144x144_2_2_1_1_0_0 : DotDims S16x144x32 S16x144x32 S16x144x144 where
  lhsContracting := [2]
  rhsContracting := [2]
  lhsNonContracting := [1]
  rhsNonContracting := [1]
  lhsBatch := [0]
  rhsBatch := [0]
  wf := dot_S16x144x32_S16x144x32_S16x144x144_2_2_1_1_0_0_wf
def dot_S16x144x144_S16x144x32_S16x144x32_2_1_1_2_0_0 : DotDims S16x144x144 S16x144x32 S16x144x32 where
  lhsContracting := [2]
  rhsContracting := [1]
  lhsNonContracting := [1]
  rhsNonContracting := [2]
  lhsBatch := [0]
  rhsBatch := [0]
  wf := dot_S16x144x144_S16x144x32_S16x144x32_2_1_1_2_0_0_wf
def dot_S2304x192_S192x192_S2304x192_1_0_0_1_n_n : DotDims S2304x192 S192x192 S2304x192 where
  lhsContracting := [1]
  rhsContracting := [0]
  lhsNonContracting := [0]
  rhsNonContracting := [1]
  lhsBatch := []
  rhsBatch := []
  wf := dot_S2304x192_S192x192_S2304x192_1_0_0_1_n_n_wf

abbrev win0_0 : Pipeline.Window sig grid0 :=
  Pipeline.Window.ofSpec (Memref.whole main_arg0) S1x16x144x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x144x144.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S16x6x144x144.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S192x576.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S576.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S192x192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S192.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x16x144x192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S30x32x144x192 : Shape := ⟨4, ![30, 32, 144, 192]⟩
abbrev S30x32x144x144 : Shape := ⟨4, ![30, 32, 144, 144]⟩
abbrev S192x576 : Shape := ⟨2, ![192, 576]⟩
abbrev S576 : Shape := ⟨1, ![576]⟩
abbrev S3312x32x6 : Shape := ⟨3, ![3312, 32, 6]⟩
abbrev S192x192 : Shape := ⟨2, ![192, 192]⟩
abbrev S192 : Shape := ⟨1, ![192]⟩
abbrev S144x144 : Shape := ⟨2, ![144, 144]⟩
abbrev S30x32x144x576 : Shape := ⟨4, ![30, 32, 144, 576]⟩
abbrev S1x1x1x576 : Shape := ⟨4, ![1, 1, 1, 576]⟩
abbrev S30x32x144x3x6x32 : Shape := ⟨6, ![30, 32, 144, 3, 6, 32]⟩
abbrev S3x30x6x32x144x32 : Shape := ⟨6, ![3, 30, 6, 32, 144, 32]⟩
abbrev S1x30x6x32x144x32 : Shape := ⟨6, ![1, 30, 6, 32, 144, 32]⟩
abbrev S30x6x32x144x32 : Shape := ⟨5, ![30, 6, 32, 144, 32]⟩
abbrev S_ : Shape := ⟨0, ![]⟩
abbrev S30x6x32x144x144 : Shape := ⟨5, ![30, 6, 32, 144, 144]⟩
abbrev S20736 : Shape := ⟨1, ![20736]⟩
abbrev S20736x1 : Shape := ⟨2, ![20736, 1]⟩
abbrev S20736x32x6 : Shape := ⟨3, ![20736, 32, 6]⟩
abbrev S144x144x32x6 : Shape := ⟨4, ![144, 144, 32, 6]⟩
abbrev S6x32x144x144 : Shape := ⟨4, ![6, 32, 144, 144]⟩
abbrev S1x6x32x144x144 : Shape := ⟨5, ![1, 6, 32, 144, 144]⟩
abbrev S1x30x6x32x144x144 : Shape := ⟨6, ![1, 30, 6, 32, 144, 144]⟩
abbrev S1x30x1x32x144x144 : Shape := ⟨6, ![1, 30, 1, 32, 144, 144]⟩
abbrev S30x6x32x144 : Shape := ⟨4, ![30, 6, 32, 144]⟩
abbrev S30x6x32x144x1 : Shape := ⟨5, ![30, 6, 32, 144, 1]⟩
abbrev S30x32x144x6x32 : Shape := ⟨5, ![30, 32, 144, 6, 32]⟩
abbrev S1x1x1x192 : Shape := ⟨4, ![1, 1, 1, 192]⟩

abbrev nBuf : Space → Nat
  | .hbm => 65
  | .vmem => 0
  | .smem => 0
  | _ => 0

abbrev bufTy : (tb : Table) → Fin (tcTables nBuf tb) → BufTy
  | .hbm, ⟨0, _⟩ => ⟨S30x32x144x192, .f32⟩
  | .hbm, ⟨1, _⟩ => ⟨S30x32x144x144, .f32⟩
  | .hbm, ⟨2, _⟩ => ⟨S192x576, .f32⟩
  | .hbm, ⟨3, _⟩ => ⟨S576, .f32⟩
  | .hbm, ⟨4, _⟩ => ⟨S3312x32x6, .f32⟩
  | .hbm, ⟨5, _⟩ => ⟨S192x192, .f32⟩
  | .hbm, ⟨6, _⟩ => ⟨S192, .f32⟩
  | .hbm, ⟨7, _⟩ => ⟨S144x144, .i32⟩
  | .hbm, ⟨8, _⟩ => ⟨S30x32x144x576, .f32⟩
  | .hbm, ⟨9, _⟩ => ⟨S1x1x1x576, .f32⟩
  | .hbm, ⟨10, _⟩ => ⟨S30x32x144x576, .f32⟩
  | .hbm, ⟨11, _⟩ => ⟨S30x32x144x576, .f32⟩
  | .hbm, ⟨12, _⟩ => ⟨S30x32x144x3x6x32, .f32⟩
  | .hbm, ⟨13, _⟩ => ⟨S3x30x6x32x144x32, .f32⟩
  | .hbm, ⟨14, _⟩ => ⟨S1x30x6x32x144x32, .f32⟩
  | .hbm, ⟨15, _⟩ => ⟨S30x6x32x144x32, .f32⟩
  | .hbm, ⟨16, _⟩ => ⟨S_, .f32⟩
  | .hbm, ⟨17, _⟩ => ⟨S30x6x32x144x32, .f32⟩
  | .hbm, ⟨18, _⟩ => ⟨S30x6x32x144x32, .f32⟩
  | .hbm, ⟨19, _⟩ => ⟨S1x30x6x32x144x32, .f32⟩
  | .hbm, ⟨20, _⟩ => ⟨S30x6x32x144x32, .f32⟩
  | .hbm, ⟨21, _⟩ => ⟨S1x30x6x32x144x32, .f32⟩
  | .hbm, ⟨22, _⟩ => ⟨S30x6x32x144x32, .f32⟩
  | .hbm, ⟨23, _⟩ => ⟨S30x6x32x144x144, .f32⟩
  | .hbm, ⟨24, _⟩ => ⟨S20736, .i32⟩
  | .hbm, ⟨25, _⟩ => ⟨S_, .i32⟩
  | .hbm, ⟨26, _⟩ => ⟨S20736, .i32⟩
  | .hbm, ⟨27, _⟩ => ⟨S20736, .i1⟩
  | .hbm, ⟨28, _⟩ => ⟨S_, .i32⟩
  | .hbm, ⟨29, _⟩ => ⟨S20736, .i32⟩
  | .hbm, ⟨30, _⟩ => ⟨S20736, .i32⟩
  | .hbm, ⟨31, _⟩ => ⟨S20736, .i32⟩
  | .hbm, ⟨32, _⟩ => ⟨S20736x1, .i32⟩
  | .hbm, ⟨33, _⟩ => ⟨S20736x32x6, .f32⟩
  | .hbm, ⟨34, _⟩ => ⟨S144x144x32x6, .f32⟩
  | .hbm, ⟨35, _⟩ => ⟨S6x32x144x144, .f32⟩
  | .hbm, ⟨36, _⟩ => ⟨S1x6x32x144x144, .f32⟩
  | .hbm, ⟨37, _⟩ => ⟨S30x6x32x144x144, .f32⟩
  | .hbm, ⟨38, _⟩ => ⟨S30x6x32x144x144, .f32⟩
  | .hbm, ⟨39, _⟩ => ⟨S1x30x6x32x144x144, .f32⟩
  | .hbm, ⟨40, _⟩ => ⟨S1x30x1x32x144x144, .f32⟩
  | .hbm, ⟨41, _⟩ => ⟨S1x30x6x32x144x144, .f32⟩
  | .hbm, ⟨42, _⟩ => ⟨S1x30x6x32x144x144, .f32⟩
  | .hbm, ⟨43, _⟩ => ⟨S30x6x32x144x144, .f32⟩
  | .hbm, ⟨44, _⟩ => ⟨S_, .f32⟩
  | .hbm, ⟨45, _⟩ => ⟨S30x6x32x144, .f32⟩
  | .hbm, ⟨46, _⟩ => ⟨S_, .f32⟩
  | .hbm, ⟨47, _⟩ => ⟨S30x6x32x144, .f32⟩
  | .hbm, ⟨48, _⟩ => ⟨S30x6x32x144, .f32⟩
  | .hbm, ⟨49, _⟩ => ⟨S30x6x32x144x1, .f32⟩
  | .hbm, ⟨50, _⟩ => ⟨S30x6x32x144x144, .f32⟩
  | .hbm, ⟨51, _⟩ => ⟨S30x6x32x144x144, .f32⟩
  | .hbm, ⟨52, _⟩ => ⟨S30x6x32x144x144, .f32⟩
  | .hbm, ⟨53, _⟩ => ⟨S_, .f32⟩
  | .hbm, ⟨54, _⟩ => ⟨S30x6x32x144, .f32⟩
  | .hbm, ⟨55, _⟩ => ⟨S30x6x32x144x1, .f32⟩
  | .hbm, ⟨56, _⟩ => ⟨S30x6x32x144x144, .f32⟩
  | .hbm, ⟨57, _⟩ => ⟨S30x6x32x144x144, .f32⟩
  | .hbm, ⟨58, _⟩ => ⟨S30x6x32x144x32, .f32⟩
  | .hbm, ⟨59, _⟩ => ⟨S30x32x144x6x32, .f32⟩
  | .hbm, ⟨60, _⟩ => ⟨S30x32x144x192, .f32⟩
  | .hbm, ⟨61, _⟩ => ⟨S30x32x144x192, .f32⟩
  | .hbm, ⟨62, _⟩ => ⟨S1x1x1x192, .f32⟩
  | .hbm, ⟨63, _⟩ => ⟨S30x32x144x192, .f32⟩
  | .hbm, ⟨64, _⟩ => ⟨S30x32x144x192, .f32⟩
  | _, _ => ⟨S30x32x144x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_v16 : Ref sig .tc := ⟨.hbm, 26, rfl⟩
abbrev main_v17 : Ref sig .tc := ⟨.hbm, 27, rfl⟩
abbrev main_c_0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_1 : Ref sig .tc := ⟨.hbm, 44, rfl⟩
abbrev main_v33 : Ref sig .tc := ⟨.hbm, 45, rfl⟩
abbrev main_cst_2 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_3 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]

class Facts₀ : Prop where
  bcast_S576_S1x1x1x576_3 : S576.BroadcastsInDim S1x1x1x576 (![3] : Fin 1 → Fin S1x1x1x576.rank)
  bcast_S1x1x1x576_S30x32x144x576_0_1_2_3 : S1x1x1x576.BroadcastsInDim S30x32x144x576 (![0, 1, 2, 3] : Fin 4 → Fin S30x32x144x576.rank)
  shapeCasts_S30x32x144x576_S30x32x144x3x6x32 : S30x32x144x576.ShapeCasts S30x32x144x3x6x32
  transposes_S30x32x144x3x6x32_S3x30x6x32x144x32_3_0_4_1_2_5 : S30x32x144x3x6x32.Transposes [3, 0, 4, 1, 2, 5] S3x30x6x32x144x32
  slices_S3x30x6x32x144x32_S1x30x6x32x144x32_0_0_0_0_0_0 : S3x30x6x32x144x32.Slices ![0, 0, 0, 0, 0, 0] S1x30x6x32x144x32
  shapeCasts_S1x30x6x32x144x32_S30x6x32x144x32 : S1x30x6x32x144x32.ShapeCasts S30x6x32x144x32
  bcast_S_S30x6x32x144x32 : S_.BroadcastsInDim S30x6x32x144x32 (![] : Fin 0 → Fin S30x6x32x144x32.rank)
  slices_S3x30x6x32x144x32_S1x30x6x32x144x32_1_0_0_0_0_0 : S3x30x6x32x144x32.Slices ![1, 0, 0, 0, 0, 0] S1x30x6x32x144x32
  slices_S3x30x6x32x144x32_S1x30x6x32x144x32_2_0_0_0_0_0 : S3x30x6x32x144x32.Slices ![2, 0, 0, 0, 0, 0] S1x30x6x32x144x32
  shapeCasts_S144x144_S20736 : S144x144.ShapeCasts S20736
  bcast_S_S20736 : S_.BroadcastsInDim S20736 (![] : Fin 0 → Fin S20736.rank)
  bcast_S20736_S20736x1_0 : S20736.BroadcastsInDim S20736x1 (![0] : Fin 1 → Fin S20736x1.rank)
  shapeCasts_S20736x32x6_S144x144x32x6 : S20736x32x6.ShapeCasts S144x144x32x6
  transposes_S144x144x32x6_S6x32x144x144_3_2_0_1 : S144x144x32x6.Transposes [3, 2, 0, 1] S6x32x144x144
  bcast_S6x32x144x144_S1x6x32x144x144_1_2_3_4 : S6x32x144x144.BroadcastsInDim S1x6x32x144x144 (![1, 2, 3, 4] : Fin 4 → Fin S1x6x32x144x144.rank)
  bcast_S1x6x32x144x144_S30x6x32x144x144_0_1_2_3_4 : S1x6x32x144x144.BroadcastsInDim S30x6x32x144x144 (![0, 1, 2, 3, 4] : Fin 5 → Fin S30x6x32x144x144.rank)
  shapeCasts_S30x6x32x144x144_S1x30x6x32x144x144 : S30x6x32x144x144.ShapeCasts S1x30x6x32x144x144
  bcast_S30x32x144x144_S1x30x1x32x144x144_1_3_4_5 : S30x32x144x144.BroadcastsInDim S1x30x1x32x144x144 (![1, 3, 4, 5] : Fin 4 → Fin S1x30x1x32x144x144.rank)
  bcast_S1x30x1x32x144x144_S1x30x6x32x144x144_0_1_2_3_4_5 : S1x30x1x32x144x144.BroadcastsInDim S1x30x6x32x144x144 (![0, 1, 2, 3, 4, 5] : Fin 6 → Fin S1x30x6x32x144x144.rank)
  shapeCasts_S1x30x6x32x144x144_S30x6x32x144x144 : S1x30x6x32x144x144.ShapeCasts S30x6x32x144x144
  reducesTo_S30x6x32x144x144_S30x6x32x144_d4 : S30x6x32x144x144.ReducesTo [4] S30x6x32x144
  h_S_ : 0 < S_.numel
  bcast_S_S30x6x32x144 : S_.BroadcastsInDim S30x6x32x144 (![] : Fin 0 → Fin S30x6x32x144.rank)
  bcast_S30x6x32x144_S30x6x32x144x1_0_1_2_3 : S30x6x32x144.BroadcastsInDim S30x6x32x144x1 (![0, 1, 2, 3] : Fin 4 → Fin S30x6x32x144x1.rank)
  bcast_S30x6x32x144x1_S30x6x32x144x144_0_1_2_3_4 : S30x6x32x144x1.BroadcastsInDim S30x6x32x144x144 (![0, 1, 2, 3, 4] : Fin 5 → Fin S30x6x32x144x144.rank)
  transposes_S30x6x32x144x32_S30x32x144x6x32_0_2_3_1_4 : S30x6x32x144x32.Transposes [0, 2, 3, 1, 4] S30x32x144x6x32
  shapeCasts_S30x32x144x6x32_S30x32x144x192 : S30x32x144x6x32.ShapeCasts S30x32x144x192
  bcast_S192_S1x1x1x192_3 : S192.BroadcastsInDim S1x1x1x192 (![3] : Fin 1 → Fin S1x1x1x192.rank)
  bcast_S1x1x1x192_S30x32x144x192_0_1_2_3 : S1x1x1x192.BroadcastsInDim S30x32x144x192 (![0, 1, 2, 3] : Fin 4 → Fin S30x32x144x192.rank)
  dot_S30x32x144x192_S192x576_S30x32x144x576_3_0_012_1_n_n_wf : DotDims.WF S30x32x144x192 S192x576 S30x32x144x576 [3] [0] [0, 1, 2] [1] [] []
  dot_S30x6x32x144x32_S30x6x32x144x32_S30x6x32x144x144_4_4_3_3_012_012_wf : DotDims.WF S30x6x32x144x32 S30x6x32x144x32 S30x6x32x144x144 [4] [4] [3] [3] [0, 1, 2] [0, 1, 2]
  gather_S3312x32x6_S20736x1_S20736x32x6_12_0_n_n_0_1_1326_wf : GatherDims.WF S3312x32x6 S20736x1 S20736x32x6 [1, 2] [0] [] [0] [] 1 ![1, 32, 6]
  dot_S30x6x32x144x144_S30x6x32x144x32_S30x6x32x144x32_4_3_3_4_012_012_wf : DotDims.WF S30x6x32x144x144 S30x6x32x144x32 S30x6x32x144x32 [4] [3] [3] [4] [0, 1, 2] [0, 1, 2]
  dot_S30x32x144x192_S192x192_S30x32x144x192_3_0_012_1_n_n_wf : DotDims.WF S30x32x144x192 S192x192 S30x32x144x192 [3] [0] [0, 1, 2] [1] [] []

variable [Facts₀]

def dot_S30x32x144x192_S192x576_S30x32x144x576_3_0_012_1_n_n : DotDims S30x32x144x192 S192x576 S30x32x144x576 where
  lhsContracting := [3]
  rhsContracting := [0]
  lhsNonContracting := [0, 1, 2]
  rhsNonContracting := [1]
  lhsBatch := []
  rhsBatch := []
  wf := dot_S30x32x144x192_S192x576_S30x32x144x576_3_0_012_1_n_n_wf
def dot_S30x6x32x144x32_S30x6x32x144x32_S30x6x32x144x144_4_4_3_3_012_012 : DotDims S30x6x32x144x32 S30x6x32x144x32 S30x6x32x144x144 where
  lhsContracting := [4]
  rhsContracting := [4]
  lhsNonContracting := [3]
  rhsNonContracting := [3]
  lhsBatch := [0, 1, 2]
  rhsBatch := [0, 1, 2]
  wf := dot_S30x6x32x144x32_S30x6x32x144x32_S30x6x32x144x144_4_4_3_3_012_012_wf
def gather_S3312x32x6_S20736x1_S20736x32x6_12_0_n_n_0_1_1326 : GatherDims S3312x32x6 S20736x1 S20736x32x6 where
  offsetDims := [1, 2]
  collapsedSliceDims := [0]
  operandBatchingDims := []
  startIndicesBatchingDims := []
  startIndexMap := [0]
  indexVectorDim := 1
  sliceSizes := ![1, 32, 6]
  wf := gather_S3312x32x6_S20736x1_S20736x32x6_12_0_n_n_0_1_1326_wf
def dot_S30x6x32x144x144_S30x6x32x144x32_S30x6x32x144x32_4_3_3_4_012_012 : DotDims S30x6x32x144x144 S30x6x32x144x32 S30x6x32x144x32 where
  lhsContracting := [4]
  rhsContracting := [3]
  lhsNonContracting := [3]
  rhsNonContracting := [4]
  lhsBatch := [0, 1, 2]
  rhsBatch := [0, 1, 2]
  wf := dot_S30x6x32x144x144_S30x6x32x144x32_S30x6x32x144x32_4_3_3_4_012_012_wf
def dot_S30x32x144x192_S192x192_S30x32x144x192_3_0_012_1_n_n : DotDims S30x32x144x192 S192x192 S30x32x144x192 where
  lhsContracting := [3]
  rhsContracting := [0]
  lhsNonContracting := [0, 1, 2]
  rhsNonContracting := [1]
  lhsBatch := []
  rhsBatch := []
  wf := dot_S30x32x144x192_S192x192_S30x32x144x192_3_0_012_1_n_n_wf

class Facts : Prop extends Facts₀ where

variable [Facts]
-- ==== Proof.AttnWindow.lean ====
/-
  One attention window on the extended reals.

  A window has 144 tokens of 192 channels.  The fused projection sends a token to 576 channels,
  `s·192 + h·32 + e`: `s` selects query, key or value, `h` one of six heads, `e` one of the 32 coordinates of a
  head.  For head `h` the score of query token `n` against key token `m` is the scaled inner product of their
  32 coordinates plus a position bias and a mask; a row of scores is normalised by the softmax taken with the
  row maximum subtracted (the maximum folded from minus infinity); the head's output at token `n` is the
  probability-weighted sum of the value tokens.  The six heads' outputs, laid side by side as 192 channels,
  go through the output projection.  Every sum is a finite sum in the order of its index type, every quotient
  the exact division of the extended reals.
-/
import Idealize.ShloMosaic.PureOps.Ideal

noncomputable section

namespace Cert.Attn

open Idealize.ShloMosaic

/-- Channel `s·192 + h·32 + e` of the fused projection's 576 outputs. -/
def chan (s : Fin 3) (h : Fin 6) (e : Fin 32) : Fin 576 :=
  ⟨s.val * 192 + h.val * 32 + e.val, by have := s.isLt; have := h.isLt; have := e.isLt; omega⟩

/-- The head a channel of the 192 concatenated head outputs belongs to. -/
def headOf (c : Fin 192) : Fin 6 := ⟨c.val / 32, by have := c.isLt; omega⟩

/-- The coordinate inside its head of a channel of the 192 concatenated head outputs. -/
def laneOf (c : Fin 192) : Fin 32 := ⟨c.val % 32, by have := c.isLt; omega⟩

/-- The factor `32^(-1/2)` as the binary32 number both programs print. -/
def scale : EReal := Ideal.ofBits .f32 0x3E3504F3#32

/-- Minus infinity as the binary32 pattern both programs print. -/
def negInf : EReal := Ideal.ofBits .f32 0xFF800000#32

/-- What one window's result depends on: its tokens, its mask, its position bias per head, and the two
    projections' weights and biases. -/
structure Inputs where
  x : Fin 144 → Fin 192 → EReal
  mask : Fin 144 → Fin 144 → EReal
  bias : Fin 6 → Fin 144 → Fin 144 → EReal
  wqkv : Fin 192 → Fin 576 → EReal
  bqkv : Fin 576 → EReal
  wproj : Fin 192 → Fin 192 → EReal
  bproj : Fin 192 → EReal

variable (I : Inputs)

/-- The fused projection of token `n` at channel `k`. -/
def qkv (n : Fin 144) (k : Fin 576) : EReal := (∑ c : Fin 192, I.x n c * I.wqkv c k) + I.bqkv k

/-- Head `h`'s score of query token `n` against key token `m`. -/
def score (h : Fin 6) (n m : Fin 144) : EReal :=
  ((∑ e : Fin 32, (qkv I n (chan 0 h e) * scale) * qkv I m (chan 1 h e)) + I.bias h n m) + I.mask n m

/-- The maximum of a row of scores, folded from minus infinity (and once more against minus infinity, as both
    programs do). -/
def rowMax (h : Fin 6) (n : Fin 144) : EReal :=
  max negInf ((Finset.univ : Finset (Fin 144)).fold max negInf (fun m => score I h n m))

/-- The unnormalised softmax weight. -/
def weight (h : Fin 6) (n m : Fin 144) : EReal := Ideal.exp (score I h n m - rowMax I h n)

/-- The softmax probability. -/
def prob (h : Fin 6) (n m : Fin 144) : EReal := Ideal.div (weight I h n m) (∑ m' : Fin 144, weight I h n m')

/-- Head `h`'s output at token `n`, coordinate `e`. -/
def mix (h : Fin 6) (n : Fin 144) (e : Fin 32) : EReal := ∑ m : Fin 144, prob I h n m * qkv I m (chan 2 h e)

/-- The window's result at token `n`, channel `j`. -/
def out (n : Fin 144) (j : Fin 192) : EReal :=
  (∑ c : Fin 192, mix I (headOf c) n (laneOf c) * I.wproj c j) + I.bproj j

end Cert.Attn

end
-- ==== Proof.AttnArrays.lean ====
/-
  The attention windows of the whole arrays and of one grid point's blocks.

  The activations `[30, 32, 144, 192]` and the mask `[30, 32, 144, 144]` hold one window per pair `(b, w)`; the
  position bias is a table `[20736, 32, 6]` whose row `n·144 + m` holds, for window type `w` and head `h`, the bias
  of query token `n` against key token `m`; the projections' weights and biases are shared by all windows.  A grid
  point's blocks hold sixteen consecutive window types of one `b`: the activations `[1, 16, 144, 192]`, the mask
  `[1, 16, 144, 144]` and the bias re-laid as `[16, 6, 144, 144]`.  Each window's result is `Cert.Attn.out` of its own
  inputs, so the whole result is one function of the argument arrays, index by index.
-/
import Idealize.ShloMosaic.Lib.ValueIdx
import proofs.«127267_j4844723109913_2_alg».proof.Proof.AttnWindow

noncomputable section

namespace Cert.Attn

open Idealize.ShloMosaic Idealize.ShloMosaic.ValueIdx

/-- Row `n·144 + m` of the flattened `144 × 144` table of position indices. -/
def pairPos (n m : Fin 144) : Fin 20736 := ⟨n.val * 144 + m.val, by have := n.isLt; have := m.isLt; omega⟩

/-- The inputs of window `(b, w)` of the whole arrays: activations `a0`, mask `a1`, gathered bias table `g`, the
    fused projection `a2`, `a3` and the output projection `a5`, `a6`. -/
def arrayWindow (a0 : (⟨4, ![30, 32, 144, 192]⟩ : Shape).Idx → EReal) (a1 : (⟨4, ![30, 32, 144, 144]⟩ : Shape).Idx → EReal)
    (g : (⟨3, ![20736, 32, 6]⟩ : Shape).Idx → EReal) (a2 : (⟨2, ![192, 576]⟩ : Shape).Idx → EReal)
    (a3 : (⟨1, ![576]⟩ : Shape).Idx → EReal) (a5 : (⟨2, ![192, 192]⟩ : Shape).Idx → EReal)
    (a6 : (⟨1, ![192]⟩ : Shape).Idx → EReal) (b : Fin 30) (w : Fin 32) : Inputs where
  x := fun n c => a0 (ix4 b w n c)
  mask := fun n m => a1 (ix4 b w n m)
  bias := fun h n m => g (ix3 (pairPos n m) w h)
  wqkv := fun c k => a2 (ix2 c k)
  bqkv := fun k => a3 (ix1 k)
  wproj := fun c j => a5 (ix2 c j)
  bproj := fun j => a6 (ix1 j)

/-- The inputs of window `w` of one grid point's blocks. -/
def blockWindow (x0 : (⟨4, ![1, 16, 144, 192]⟩ : Shape).Idx → EReal) (x1 : (⟨4, ![1, 16, 144, 144]⟩ : Shape).Idx → EReal)
    (x2 : (⟨4, ![16, 6, 144, 144]⟩ : Shape).Idx → EReal) (x3 : (⟨2, ![192, 576]⟩ : Shape).Idx → EReal)
    (x4 : (⟨1, ![576]⟩ : Shape).Idx → EReal) (x5 : (⟨2, ![192, 192]⟩ : Shape).Idx → EReal)
    (x6 : (⟨1, ![192]⟩ : Shape).Idx → EReal) (w : Fin 16) : Inputs where
  x := fun n c => x0 (ix4 0 w n c)
  mask := fun n m => x1 (ix4 0 w n m)
  bias := fun h n m => x2 (ix4 w h n m)
  wqkv := fun c k => x3 (ix2 c k)
  bqkv := fun k => x4 (ix1 k)
  wproj := fun c j => x5 (ix2 c j)
  bproj := fun j => x6 (ix1 j)

/-- The whole result array `[30, 32, 144, 192]`: at `(b, w, n, j)` the result of window `(b, w)` at token `n`,
    channel `j`. -/
def result (a0 : (⟨4, ![30, 32, 144, 192]⟩ : Shape).Idx → EReal) (a1 : (⟨4, ![30, 32, 144, 144]⟩ : Shape).Idx → EReal)
    (g : (⟨3, ![20736, 32, 6]⟩ : Shape).Idx → EReal) (a2 : (⟨2, ![192, 576]⟩ : Shape).Idx → EReal)
    (a3 : (⟨1, ![576]⟩ : Shape).Idx → EReal) (a5 : (⟨2, ![192, 192]⟩ : Shape).Idx → EReal)
    (a6 : (⟨1, ![192]⟩ : Shape).Idx → EReal) : (⟨4, ![30, 32, 144, 192]⟩ : Shape).Idx → EReal :=
  fun i => out (arrayWindow a0 a1 g a2 a3 a5 a6 (i 0) (i 1)) (i 2) (i 3)

end Cert.Attn

end
-- ==== Proof.LibBatchedMatmul.lean ====
/-
  Batched matrix products into a zero accumulator, read at coordinates.

  With one shared leading batch axis, entry `(w, n, m)` of the product of an `[B, N, E]` array with an `[B, M, E]`
  array, both contracted along their last axis, is the sum over `e` of `lhs (w, n, e) * rhs (w, m, e)` (rows against
  rows: a product with the transposed right operand); and entry `(w, n, e)` of the product of an `[B, N, M]` array
  with an `[B, M, E]` array, the left contracted along its last axis and the right along its middle axis, is the sum
  over `m` of `lhs (w, n, m) * rhs (w, m, e)`.  On the extended reals, accumulated into zero; the contraction
  index, a rank-one index, is re-indexed by its one coordinate.  Stated for any extents and float formats, the
  dimension numbers given by their six lists so that any printed record with these lists unifies.
-/
import Idealize.ShloMosaic.PureOps.Ideal.Laws
import Idealize.ShloMosaic.Lib.ValueIdx

namespace Cert.Lib.BatchedMatmul

open Idealize.ShloMosaic Idealize.ShloMosaic.ValueIdx

set_option backward.isDefEq.respectTransparency.types false in
/-- `[B, N, E]` by `[B, M, E]`, batch axis 0, both contracted along the last axis, into zero, at `(w, n, m)`:
    `∑ e, lhs (w, n, e) * rhs (w, m, e)`. -/
theorem matmul_rows_zero_apply {B N M E : ℕ} {φ₁ φ₂ : FTy}
    (d : DotDims ⟨3, ![B, N, E]⟩ ⟨3, ![B, M, E]⟩ ⟨3, ![B, N, M]⟩)
    (hlc : d.lhsContracting = [2]) (hrc : d.rhsContracting = [2])
    (hln : d.lhsNonContracting = [1]) (hrn : d.rhsNonContracting = [1])
    (hlb : d.lhsBatch = [0]) (hrb : d.rhsBatch = [0])
    (prec : Option ContractPrecision) (lhs : FVec Ideal ⟨3, ![B, N, E]⟩ φ₁) (rhs : FVec Ideal ⟨3, ![B, M, E]⟩ φ₂)
    (w : Fin B) (n : Fin N) (m : Fin M) :
    FloatOps.matmul d prec lhs rhs (constant ⟨3, ![B, N, M]⟩ .f32 0x00000000#32) (ix3 w n m)
      = ∑ e : Fin E, lhs (ix3 w n e) * rhs (ix3 w m e) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[2], [2], [1], [1], [0], [0], wf⟩ : DotDims ⟨3, ![B, N, E]⟩ ⟨3, ![B, M, E]⟩ ⟨3, ![B, N, M]⟩) E rfl rfl).symm]
  refine Finset.sum_congr rfl fun k _ => ?_
  have hk := contrEquiv1_symm_val (⟨[2], [2], [1], [1], [0], [0], wf⟩ : DotDims ⟨3, ![B, N, E]⟩ ⟨3, ![B, M, E]⟩ ⟨3, ![B, N, M]⟩) E rfl rfl k
  have el : (⟨[2], [2], [1], [1], [0], [0], wf⟩ : DotDims ⟨3, ![B, N, E]⟩ ⟨3, ![B, M, E]⟩ ⟨3, ![B, N, M]⟩).lhsIdx (ix3 w n m)
      ((contrEquiv1 (⟨[2], [2], [1], [1], [0], [0], wf⟩ : DotDims ⟨3, ![B, N, E]⟩ ⟨3, ![B, M, E]⟩ ⟨3, ![B, N, M]⟩) E rfl rfl).symm k) = ix3 w n k :=
    funext fun a => Fin.ext (by
      match a with
      | ⟨0, h0⟩ =>
        unfold DotDims.lhsIdx
        rw [dif_pos (show (⟨0, h0⟩ : Fin 3) ∈ [(0 : Fin 3)] from List.mem_singleton.mpr rfl)]
        rfl
      | ⟨1, h1⟩ =>
        unfold DotDims.lhsIdx
        rw [dif_neg (show ¬ (⟨1, h1⟩ : Fin 3) ∈ [(0 : Fin 3)] from fun h => absurd (show (1 : ℕ) = 0 from congrArg Fin.val (List.mem_singleton.mp h)) (by decide)),
          dif_pos (show (⟨1, h1⟩ : Fin 3) ∈ [(1 : Fin 3)] from List.mem_singleton.mpr rfl)]
        rfl
      | ⟨2, _⟩ => exact (DotDims.lhsIdx_val_of_single _ rfl _ _).trans hk)
  have er : (⟨[2], [2], [1], [1], [0], [0], wf⟩ : DotDims ⟨3, ![B, N, E]⟩ ⟨3, ![B, M, E]⟩ ⟨3, ![B, N, M]⟩).rhsIdx (ix3 w n m)
      ((contrEquiv1 (⟨[2], [2], [1], [1], [0], [0], wf⟩ : DotDims ⟨3, ![B, N, E]⟩ ⟨3, ![B, M, E]⟩ ⟨3, ![B, N, M]⟩) E rfl rfl).symm k) = ix3 w m k :=
    funext fun a => Fin.ext (by
      match a with
      | ⟨0, h0⟩ =>
        unfold DotDims.rhsIdx
        rw [dif_pos (show (⟨0, h0⟩ : Fin 3) ∈ [(0 : Fin 3)] from List.mem_singleton.mpr rfl)]
        rfl
      | ⟨1, h1⟩ =>
        unfold DotDims.rhsIdx
        rw [dif_neg (show ¬ (⟨1, h1⟩ : Fin 3) ∈ [(0 : Fin 3)] from fun h => absurd (show (1 : ℕ) = 0 from congrArg Fin.val (List.mem_singleton.mp h)) (by decide)),
          dif_pos (show (⟨1, h1⟩ : Fin 3) ∈ [(1 : Fin 3)] from List.mem_singleton.mpr rfl)]
        rfl
      | ⟨2, _⟩ => exact (DotDims.rhsIdx_val_of_single _ rfl _ _).trans hk)
  rw [el, er]

set_option backward.isDefEq.respectTransparency.types false in
/-- `[B, N, M]` by `[B, M, E]`, batch axis 0, the left contracted along its last axis and the right along its middle
    axis, into zero, at `(w, n, e)`: `∑ m, lhs (w, n, m) * rhs (w, m, e)`. -/
theorem matmul_cols_zero_apply {B N M E : ℕ} {φ₁ φ₂ : FTy}
    (d : DotDims ⟨3, ![B, N, M]⟩ ⟨3, ![B, M, E]⟩ ⟨3, ![B, N, E]⟩)
    (hlc : d.lhsContracting = [2]) (hrc : d.rhsContracting = [1])
    (hln : d.lhsNonContracting = [1]) (hrn : d.rhsNonContracting = [2])
    (hlb : d.lhsBatch = [0]) (hrb : d.rhsBatch = [0])
    (prec : Option ContractPrecision) (lhs : FVec Ideal ⟨3, ![B, N, M]⟩ φ₁) (rhs : FVec Ideal ⟨3, ![B, M, E]⟩ φ₂)
    (w : Fin B) (n : Fin N) (e : Fin E) :
    FloatOps.matmul d prec lhs rhs (constant ⟨3, ![B, N, E]⟩ .f32 0x00000000#32) (ix3 w n e)
      = ∑ m : Fin M, lhs (ix3 w n m) * rhs (ix3 w m e) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[2], [1], [1], [2], [0], [0], wf⟩ : DotDims ⟨3, ![B, N, M]⟩ ⟨3, ![B, M, E]⟩ ⟨3, ![B, N, E]⟩) M rfl rfl).symm]
  refine Finset.sum_congr rfl fun k _ => ?_
  have hk := contrEquiv1_symm_val (⟨[2], [1], [1], [2], [0], [0], wf⟩ : DotDims ⟨3, ![B, N, M]⟩ ⟨3, ![B, M, E]⟩ ⟨3, ![B, N, E]⟩) M rfl rfl k
  have el : (⟨[2], [1], [1], [2], [0], [0], wf⟩ : DotDims ⟨3, ![B, N, M]⟩ ⟨3, ![B, M, E]⟩ ⟨3, ![B, N, E]⟩).lhsIdx (ix3 w n e)
      ((contrEquiv1 (⟨[2], [1], [1], [2], [0], [0], wf⟩ : DotDims ⟨3, ![B, N, M]⟩ ⟨3, ![B, M, E]⟩ ⟨3, ![B, N, E]⟩) M rfl rfl).symm k) = ix3 w n k :=
    funext fun a => Fin.ext (by
      match a with
      | ⟨0, h0⟩ =>
        unfold DotDims.lhsIdx
        rw [dif_pos (show (⟨0, h0⟩ : Fin 3) ∈ [(0 : Fin 3)] from List.mem_singleton.mpr rfl)]
        rfl
      | ⟨1, h1⟩ =>
        unfold DotDims.lhsIdx
        rw [dif_neg (show ¬ (⟨1, h1⟩ : Fin 3) ∈ [(0 : Fin 3)] from fun h => absurd (show (1 : ℕ) = 0 from congrArg Fin.val (List.mem_singleton.mp h)) (by decide)),
          dif_pos (show (⟨1, h1⟩ : Fin 3) ∈ [(1 : Fin 3)] from List.mem_singleton.mpr rfl)]
        rfl
      | ⟨2, _⟩ => exact (DotDims.lhsIdx_val_of_single _ rfl _ _).trans hk)
  have er : (⟨[2], [1], [1], [2], [0], [0], wf⟩ : DotDims ⟨3, ![B, N, M]⟩ ⟨3, ![B, M, E]⟩ ⟨3, ![B, N, E]⟩).rhsIdx (ix3 w n e)
      ((contrEquiv1 (⟨[2], [1], [1], [2], [0], [0], wf⟩ : DotDims ⟨3, ![B, N, M]⟩ ⟨3, ![B, M, E]⟩ ⟨3, ![B, N, E]⟩) M rfl rfl).symm k) = ix3 w k e :=
    funext fun a => Fin.ext (by
      match a with
      | ⟨0, h0⟩ =>
        unfold DotDims.rhsIdx
        rw [dif_pos (show (⟨0, h0⟩ : Fin 3) ∈ [(0 : Fin 3)] from List.mem_singleton.mpr rfl)]
        rfl
      | ⟨1, _⟩ => exact (DotDims.rhsIdx_val_of_single _ rfl _ _).trans hk
      | ⟨2, h2⟩ =>
        unfold DotDims.rhsIdx
        rw [dif_neg (show ¬ (⟨2, h2⟩ : Fin 3) ∈ [(0 : Fin 3)] from fun h => absurd (show (2 : ℕ) = 0 from congrArg Fin.val (List.mem_singleton.mp h)) (by decide)),
          dif_pos (show (⟨2, h2⟩ : Fin 3) ∈ [(2 : Fin 3)] from List.mem_singleton.mpr rfl)]
        rfl)
  rw [el, er]

end Cert.Lib.BatchedMatmul
-- ==== Proof.LibBlockLayouts.lean ====
/-
  Rank-3 layouts and a last-axis maximum, read at coordinates.

  For any extents, and any element type (for the layouts) or float type (for the maximum):
  * a vector maximum over the LAST axis of `[a, b, c]` into `[a, b]`, at `(p, n)`, is the fold of `max` from the
    accumulator's value over `k < c` of the array at `(p, n, k)` (`multiReduction_max_last3_apply`);
  * an array `[a, b, 1]` repeated along its unit last axis to `[a, b, c]` reads, at `(p, n, k)`, its entry `(p, n, 0)`
    (`broadcastTo_ab1_abc_apply`);
  * a run of `m` consecutive last-axis coordinates of `[a, b, c]` starting at `o` reads, at `(p, n, k)`, the array at
    `(p, n, o + k)` (`slice3_last_apply`);
  * a vector `[n]` laid as `[1, 1, n]` reads, at `(·, ·, k)`, its entry `k` (`shapeCast_n_11n_apply`), and an array
    `[1, 1, n]` repeated along its two unit axes to `[a, b, n]` reads, at `(p, q, k)`, its entry `(0, 0, k)`
    (`broadcastTo_11n_abn_apply`);
  * an array `[a, 1, b, c]` with its unit second axis dropped reads, at `(p, n, k)`, its entry `(p, 0, n, k)`
    (`shapeCast_a1bc_abc_apply`).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib.BlockLayouts

open Idealize.ShloMosaic Idealize.ShloMosaic.ValueIdx

variable {φ : FTy}

/-- A vector maximum over the last axis of [a, b, c], read at (p, n): the fold of `max` from the accumulator's
    value over the last coordinate. -/
theorem multiReduction_max_last3_apply {a b c : Nat} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.maximumf.neutral φ hφ) (p : Fin a) (n : Fin b) :
    multiReduction .maximumf [2] ⟨2, ![a, b]⟩ src acc h hφ hacc (ix2 p n)
      = (Finset.univ : Finset (Fin c)).fold max (Ideal.ofBits φ acc) (fun k => src (ix3 p n k)) := by
  rw [Ideal.multiReduction_maximumf_single]
  have hf : (src ∘ h.lift (ix2 p n)) = fun k : Fin c => src (ix3 p n k) :=
    funext fun k => congrArg src (funext fun d => Fin.ext (by match d with | ⟨0, _⟩ => rfl | ⟨1, _⟩ => rfl | ⟨2, _⟩ => rfl))
  exact congrArg (fun f => Finset.fold max (Ideal.ofBits φ acc) f (Finset.univ : Finset (Fin c))) hf

section Layout
variable {α : Type}

/-- An array [a, b, 1] repeated along its unit last axis to [a, b, c] reads, at (p, n, k), its entry (p, n, 0). -/
theorem broadcastTo_ab1_abc_apply {a b c : Nat} (x : (⟨3, ![a, b, 1]⟩ : Shape).Idx → α)
    (h : (⟨3, ![a, b, 1]⟩ : Shape).Broadcasts ⟨3, ![a, b, c]⟩) (p : Fin a) (n : Fin b) (k : Fin c) :
    broadcastTo ⟨3, ![a, b, c]⟩ x h (ix3 p n k) = x (ix3 p n (0 : Fin 1)) := by
  refine broadcastTo_apply x h (ix3 p n k) (ix3 p n (0 : Fin 1)) (fun e => ?_)
  match e with
  | ⟨0, _⟩ =>
    show p.val = if a = 1 then 0 else p.val
    split_ifs with h1
    · have := p.isLt; omega
    · rfl
  | ⟨1, _⟩ =>
    show n.val = if b = 1 then 0 else n.val
    split_ifs with h1
    · have := n.isLt; omega
    · rfl
  | ⟨2, _⟩ => show (0 : Nat) = if (1 : Nat) = 1 then 0 else k.val; rw [if_pos rfl]

/-- A run of `m` last-axis coordinates of [a, b, c] from `o` reads, at (p, n, k), the array at (p, n, q) with
    `q = o + k`. -/
theorem slice3_last_apply {a b c m : Nat} (o : Nat) (x : (⟨3, ![a, b, c]⟩ : Shape).Idx → α)
    (h : (⟨3, ![a, b, c]⟩ : Shape).Slices ![0, 0, o] ⟨3, ![a, b, m]⟩)
    (p : Fin a) (n : Fin b) (k : Fin m) (q : Fin c) (hq : q.val = o + k.val) :
    extractStridedSlice ⟨3, ![a, b, m]⟩ ![0, 0, o] x h (ix3 p n k) = x (ix3 p n q) :=
  extractStridedSlice_apply _ _ _ _ _ (fun ax => by
    match ax with
    | ⟨0, _⟩ => exact (Nat.zero_add _).symm
    | ⟨1, _⟩ => exact (Nat.zero_add _).symm
    | ⟨2, _⟩ => exact hq)

/-- A vector [n] laid as [1, 1, n] reads, at (u, v, k), its entry k. -/
theorem shapeCast_n_11n_apply {n : Nat} (x : (⟨1, ![n]⟩ : Shape).Idx → α)
    (h : (⟨1, ![n]⟩ : Shape).ShapeCasts ⟨3, ![1, 1, n]⟩) (u v : Fin 1) (k : Fin n) :
    shapeCast ⟨3, ![1, 1, n]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * n + k.val
    rw [hu, hv]; simp)

/-- An array [1, 1, n] repeated along its two unit axes to [a, b, n] reads, at (p, q, k), its entry (0, 0, k). -/
theorem broadcastTo_11n_abn_apply {a b n : Nat} (x : (⟨3, ![1, 1, n]⟩ : Shape).Idx → α)
    (h : (⟨3, ![1, 1, n]⟩ : Shape).Broadcasts ⟨3, ![a, b, n]⟩) (p : Fin a) (q : Fin b) (k : Fin n) :
    broadcastTo ⟨3, ![a, b, n]⟩ x h (ix3 p q k) = x (ix3 (0 : Fin 1) (0 : Fin 1) k) := by
  refine broadcastTo_apply x h (ix3 p q k) (ix3 (0 : Fin 1) (0 : Fin 1) k) (fun e => ?_)
  match e with
  | ⟨0, _⟩ => show (0 : Nat) = if (1 : Nat) = 1 then 0 else p.val; rw [if_pos rfl]
  | ⟨1, _⟩ => show (0 : Nat) = if (1 : Nat) = 1 then 0 else q.val; rw [if_pos rfl]
  | ⟨2, _⟩ =>
    show k.val = if n = 1 then 0 else k.val
    split_ifs with h1
    · have := k.isLt; omega
    · rfl

/-- An array [a, 1, b, c] with its unit second axis dropped reads, at (p, n, k), its entry (p, 0, n, k). -/
theorem shapeCast_a1bc_abc_apply {a b c : Nat} (x : (⟨4, ![a, 1, b, c]⟩ : Shape).Idx → α)
    (h : (⟨4, ![a, 1, b, c]⟩ : Shape).ShapeCasts ⟨3, ![a, b, c]⟩) (p : Fin a) (n : Fin b) (k : Fin c) :
    shapeCast ⟨3, ![a, b, c]⟩ x h (ix3 p n k) = x (ix4 p (0 : Fin 1) n k) :=
  shapeCast_apply x h _ _ (by
    rw [Shape.rowMajor_val_four, Shape.rowMajor_val_three]
    show ((p.val * 1 + 0) * b + n.val) * c + k.val = (p.val * b + n.val) * c + k.val
    rw [Nat.mul_one, Nat.add_zero])

end Layout

end Cert.Lib.BlockLayouts

end
-- ==== Proof.LibAxisFolds.lean ====
/-
  Folds along one axis, and a host sum over the two trailing axes, of rank-3 and rank-4 arrays, read at
  coordinates at the ideal values (floats are extended reals, every operation exact); and two keepdims layouts.
  For any extents, and any float type or (for the layouts) any element type:

  * a vector sum over the LEADING axis of [a, b, c] into [b, c], at (r, w), is the sum over k < a of the array at
    (k, r, w) (`multiReduction_add_lead_apply`), and a vector maximum over that axis is the fold of `max` from the
    accumulator's value over the same entries (`multiReduction_max_lead_apply`);
  * a vector sum over the LAST axis of [a, b, c] into [a, b], at (p, n), is the sum over k < c of the array at
    (p, n, k) (`multiReduction_add_last3_apply`);
  * a host maximum over axis 1 of [a, b, c, d] into [a, c, d], at (p, r, w), is the fold of `max` from the initial
    value over k < b of the array at (p, k, r, w) (`hostReduce_max_axis1_apply`);
  * a host sum over the TWO TRAILING axes of [a, b, c, d] into [a, b], at (p, q), is the initial value plus the
    double sum over n < c and k < d of the array at (p, q, n, k) (`hostReduceAdd_trailing_two4_apply`): the indices
    that drop to (p, q) are exactly the (p, q, n, k), in bijection with the pairs (n, k);
  * an array [b, c] laid as [1, b, c] and broadcast along a new leading axis to [a, b, c] reads, at (k, r, w), its
    entry (r, w) (`leadBroadcast_apply`); an array [a, b] given a trailing unit axis reads, at (p, n, ·), its entry
    (p, n) (`shapeCast_ab_ab1_apply`).
-/
import Idealize.ShloMosaic.PureOps.Ideal.Laws
import Idealize.ShloMosaic.Lib.ValueIdx
import Idealize.ShloMosaic.Lib.ValueLayout
import Idealize.ShloMosaic.Lib.Pipeline.Value

noncomputable section

namespace Cert.Lib.AxisFolds

open Idealize.ShloMosaic Idealize.ShloMosaic.ValueIdx

variable {φ : FTy}

/-- A vector sum over the leading axis of [a, b, c], read at (r, w): the sum over the leading coordinate. -/
theorem multiReduction_add_lead_apply {a b c : Nat} (src : FVec Ideal ⟨3, ![a, b, c]⟩ φ) (acc : BitVec φ.bits)
    (h : (⟨3, ![a, b, c]⟩ : Shape).Reduces [0] ⟨2, ![b, c]⟩) (hφ : FKind.Formats φ)
    (hacc : acc = FKind.add.neutral φ hφ) (r : Fin b) (w : Fin c) :
    multiReduction .add [0] ⟨2, ![b, c]⟩ src acc h hφ hacc (ix2 r w) = ∑ k : Fin a, src (ix3 k r w) := by
  rw [Ideal.multiReduction_add_single]
  refine Finset.sum_congr rfl fun k _ => ?_
  exact congrArg src (funext fun d => Fin.ext (by match d with | ⟨0, _⟩ => rfl | ⟨1, _⟩ => rfl | ⟨2, _⟩ => rfl))

/-- A vector maximum over the leading axis of [a, b, c], read at (r, w): the fold of `max` from the accumulator's
    value over the leading coordinate. -/
theorem multiReduction_max_lead_apply {a b c : Nat} (src : FVec Ideal ⟨3, ![a, b, c]⟩ φ) (acc : BitVec φ.bits)
    (h : (⟨3, ![a, b, c]⟩ : Shape).Reduces [0] ⟨2, ![b, c]⟩) (hφ : FKind.Formats φ)
    (hacc : acc = FKind.maximumf.neutral φ hφ) (r : Fin b) (w : Fin c) :
    multiReduction .maximumf [0] ⟨2, ![b, c]⟩ src acc h hφ hacc (ix2 r w)
      = (Finset.univ : Finset (Fin a)).fold max (Ideal.ofBits φ acc) (fun k => src (ix3 k r w)) := by
  rw [Ideal.multiReduction_maximumf_single]
  have hf : (src ∘ h.lift (ix2 r w)) = fun k : Fin a => src (ix3 k r w) :=
    funext fun k => congrArg src (funext fun d => Fin.ext (by match d with | ⟨0, _⟩ => rfl | ⟨1, _⟩ => rfl | ⟨2, _⟩ => rfl))
  exact congrArg (fun f => Finset.fold max (Ideal.ofBits φ acc) f (Finset.univ : Finset (Fin a))) hf

/-- A vector sum over the last axis of [a, b, c], read at (p, n): the sum over the last coordinate. -/
theorem multiReduction_add_last3_apply {a b c : Nat} (src : FVec Ideal ⟨3, ![a, b, c]⟩ φ) (acc : BitVec φ.bits)
    (h : (⟨3, ![a, b, c]⟩ : Shape).Reduces [2] ⟨2, ![a, b]⟩) (hφ : FKind.Formats φ)
    (hacc : acc = FKind.add.neutral φ hφ) (p : Fin a) (n : Fin b) :
    multiReduction .add [2] ⟨2, ![a, b]⟩ src acc h hφ hacc (ix2 p n) = ∑ k : Fin c, src (ix3 p n k) := by
  rw [Ideal.multiReduction_add_single]
  refine Finset.sum_congr rfl fun k _ => ?_
  exact congrArg src (funext fun d => Fin.ext (by match d with | ⟨0, _⟩ => rfl | ⟨1, _⟩ => rfl | ⟨2, _⟩ => rfl))

/-- A host maximum over axis 1 of [a, b, c, d], read at (p, r, w): the fold of `max` from the initial value over
    the coordinate of axis 1. -/
theorem hostReduce_max_axis1_apply {a b c d : Nat} {u : Shape} (x : FVec Ideal ⟨4, ![a, b, c, d]⟩ φ)
    (init : u.Idx → Ideal φ) (h' : (⟨4, ![a, b, c, d]⟩ : Shape).ReducesTo [1] ⟨3, ![a, c, d]⟩)
    (h : (⟨4, ![a, b, c, d]⟩ : Shape).Reduces [1] ⟨3, ![a, c, d]⟩) (hu : 0 < u.numel)
    (p : Fin a) (r : Fin c) (w : Fin d) :
    Host.reduce FloatOps.maximumf x init h' hu (ix3 p r w)
      = (Finset.univ : Finset (Fin b)).fold max (init (Shape.Idx.first hu)) (fun k => x (ix4 p k r w)) := by
  rw [Host.reduce_eq_fold_single FloatOps.maximumf x init h' h hu]
  have hf : (x ∘ h.lift (ix3 p r w)) = fun k : Fin b => x (ix4 p k r w) :=
    funext fun k => congrArg x (funext fun e => Fin.ext (by
      match e with | ⟨0, _⟩ => rfl | ⟨1, _⟩ => rfl | ⟨2, _⟩ => rfl | ⟨3, _⟩ => rfl))
  exact congrArg (fun f => Finset.fold max (init (Shape.Idx.first hu)) f (Finset.univ : Finset (Fin b))) hf

/-- An index of [a, b, c, d] drops, over its two trailing axes, to its two leading coordinates. -/
theorem drop_trailing_two4 {a b c d : Nat} (h : (⟨4, ![a, b, c, d]⟩ : Shape).ReducesTo [2, 3] ⟨2, ![a, b]⟩)
    (i : (⟨4, ![a, b, c, d]⟩ : Shape).Idx) : h.drop i = ix2 (i 0) (i 1) := by
  funext e
  match e with
  | ⟨0, _⟩ => exact Fin.ext (h.drop_apply_val_of_eq i ⟨0, Nat.zero_lt_two⟩ 0 Nat.zero_lt_two rfl)
  | ⟨1, _⟩ => exact Fin.ext (h.drop_apply_val_of_eq i ⟨1, Nat.one_lt_two⟩ 1 Nat.one_lt_two rfl)

/-- A host sum over the two trailing axes of [a, b, c, d], read at (p, q): the initial value plus the double sum
    over the two trailing coordinates. -/
theorem hostReduceAdd_trailing_two4_apply {a b c d : Nat}
    (h : (⟨4, ![a, b, c, d]⟩ : Shape).ReducesTo [2, 3] ⟨2, ![a, b]⟩)
    (x : (⟨4, ![a, b, c, d]⟩ : Shape).Idx → EReal) (init : EReal) (p : Fin a) (q : Fin b) :
    Ideal.hostReduceAdd h x init (ix2 p q) = init + ∑ n : Fin c, ∑ k : Fin d, x (ix4 p q n k) := by
  unfold Ideal.hostReduceAdd
  refine congrArg (init + ·) ?_
  rw [← Finset.sum_product' (Finset.univ : Finset (Fin c)) (Finset.univ : Finset (Fin d)) fun n k => x (ix4 p q n k)]
  refine Finset.sum_nbij' (fun i => (i 2, i 3)) (fun z => ix4 p q z.1 z.2) ?_ ?_ ?_ ?_ ?_
  · intro i _; exact Finset.mem_product.2 ⟨Finset.mem_univ _, Finset.mem_univ _⟩
  · intro z _
    refine Finset.mem_filter.2 ⟨Finset.mem_univ _, ?_⟩
    rw [drop_trailing_two4]
    rfl
  · intro i hi
    have hj := (Finset.mem_filter.1 hi).2
    rw [drop_trailing_two4] at hj
    have h0 : i 0 = p := congrFun hj 0
    have h1 : i 1 = q := congrFun hj 1
    funext e
    match e with
    | ⟨0, _⟩ => exact h0.symm
    | ⟨1, _⟩ => exact h1.symm
    | ⟨2, _⟩ => rfl
    | ⟨3, _⟩ => rfl
  · intro z _; rfl
  · intro i hi
    have hj := (Finset.mem_filter.1 hi).2
    rw [drop_trailing_two4] at hj
    have h0 : i 0 = p := congrFun hj 0
    have h1 : i 1 = q := congrFun hj 1
    refine congrArg x ?_
    funext e
    match e with
    | ⟨0, _⟩ => exact h0
    | ⟨1, _⟩ => exact h1
    | ⟨2, _⟩ => rfl
    | ⟨3, _⟩ => rfl

section Layout
variable {α : Type}

/-- An array [a, b] given a trailing unit axis reads, at (p, n, ·), its entry (p, n). -/
theorem shapeCast_ab_ab1_apply {a b : Nat} (x : (⟨2, ![a, b]⟩ : Shape).Idx → α)
    (h : (⟨2, ![a, b]⟩ : Shape).ShapeCasts ⟨3, ![a, b, 1]⟩) (p : Fin a) (n : Fin b) (z : Fin 1) :
    shapeCast ⟨3, ![a, b, 1]⟩ x h (ix3 p n z) = x (ix2 p n) :=
  shapeCast_apply x h _ _ (by
    have hz : z.val = 0 := by omega
    rw [Shape.rowMajor_val_three, Shape.rowMajor_val_two]
    show p.val * b + n.val = (p.val * b + n.val) * 1 + z.val
    rw [hz, Nat.mul_one, Nat.add_zero])

/-- An array [b, c] laid as [1, b, c] and broadcast along a new leading axis to [a, b, c] reads, at (k, r, w), its
    entry (r, w). -/
theorem leadBroadcast_apply {a b c : Nat} (y : (⟨2, ![b, c]⟩ : Shape).Idx → α)
    (hc : (⟨2, ![b, c]⟩ : Shape).ShapeCasts ⟨3, ![1, b, c]⟩)
    (hb : (⟨3, ![1, b, c]⟩ : Shape).Broadcasts ⟨3, ![a, b, c]⟩) (k : Fin a) (r : Fin b) (w : Fin c) :
    broadcastTo ⟨3, ![a, b, c]⟩ (shapeCast ⟨3, ![1, b, c]⟩ y hc) hb (ix3 k r w) = y (ix2 r w) := by
  refine (broadcastTo_apply _ hb (ix3 k r w) (ix3 (0 : Fin 1) r w) (fun e => ?_)).trans
    (shapeCast_ab_1ab_apply y hc 0 r w)
  match e with
  | ⟨0, _⟩ => show (0 : Nat) = if (1 : Nat) = 1 then 0 else k.val; rw [if_pos rfl]
  | ⟨1, _⟩ =>
    show r.val = if b = 1 then 0 else r.val
    split_ifs with hb1
    · have := r.isLt; omega
    · rfl
  | ⟨2, _⟩ =>
    show w.val = if c = 1 then 0 else w.val
    split_ifs with hc1
    · have := w.isLt; omega
    · rfl

end Layout

end Cert.Lib.AxisFolds

end
-- ==== Proof.KernelHead.lean ====
/-
  One head of the attention kernel on a grid point's sixteen windows.

  The body spells a head in four steps: the products of the head's query rows with its key rows; the scores,
  those products plus the head's position bias plus the mask; the unnormalised softmax weights, the exponential of
  a score minus its row's maximum (folded from minus infinity and taken once more against minus infinity); and the
  weights divided by their row sum, multiplied into the head's value rows.  Read at window `w` each step is the
  corresponding quantity of the attention window (`Cert.Attn.score`, `weight`, `mix`) whenever the head's query,
  key and value rows, the bias and the mask are that window's.
-/
import proofs.«127267_j4844723109913_2_alg».proof.Proof.Gen.KernelIdeal.Skeleton
import proofs.«127267_j4844723109913_2_alg».proof.Proof.AttnWindow
import proofs.«127267_j4844723109913_2_alg».proof.Proof.LibBatchedMatmul
import proofs.«127267_j4844723109913_2_alg».proof.Proof.LibBlockLayouts
import proofs.«127267_j4844723109913_2_alg».proof.Proof.LibAxisFolds

noncomputable section

namespace Cert.KernelAttn

open Cert.KernelIdeal Cert.KernelIdeal.Gen Idealize.ShloMosaic Idealize.ShloMosaic.ValueIdx Cert.Attn

/-- The products of a head's query rows with its key rows, window by window. -/
def dots (qh kh : FVec Ideal S16x144x32 .bf16) : FVec Ideal S16x144x144 .f32 :=
  matmul dot_S16x144x32_S16x144x32_S16x144x144_2_2_1_1_0_0 none qh kh (constant S16x144x144 .f32 0x00000000#32)

/-- The scores: the products plus the head's position bias plus the mask. -/
def scores (qk : FVec Ideal S16x144x144 .f32) (bias : Vec Ideal S16x1x144x144 .bf16) (mk : FVec Ideal S16x144x144 .f32) :
    FVec Ideal S16x144x144 .f32 :=
  addf (addf qk (extf .f32 (shapeCast S16x144x144 bias shapeCasts_S16x1x144x144_S16x144x144) bitsLt_bf16_f32)) mk

/-- The unnormalised softmax weights of the scores. -/
def weights (s : FVec Ideal S16x144x144 .f32) : FVec Ideal S16x144x144 .f32 :=
  exp (subf s (broadcastTo S16x144x144 (shapeCast S16x144x1
    (maximumf (broadcast S16x144 (Scalar.ofBits .f32 0xFF800000#32))
      (multiReduction .maximumf [2] S16x144 s 0xFF800000#32 reduces_S16x144x144_S16x144 (.inl rfl) rfl))
    shapeCasts_S16x144_S16x144x1) broadcasts_S16x144x1_S16x144x144))

/-- The weights normalised by their row sums and multiplied into the head's value rows. -/
def mixed (ex : FVec Ideal S16x144x144 .f32) (vh : FVec Ideal S16x144x32 .bf16) : FVec Ideal S16x144x32 .f32 :=
  matmul dot_S16x144x144_S16x144x32_S16x144x32_2_1_1_2_0_0 none
    (truncf .bf16 (divf ex (broadcastTo S16x144x144 (shapeCast S16x144x1
      (multiReduction .add [2] S16x144 ex 0x00000000#32 reduces_S16x144x144_S16x144 (.inl rfl) rfl)
      shapeCasts_S16x144_S16x144x1) broadcasts_S16x144x1_S16x144x144)) bitsLt_bf16_f32)
    vh (constant S16x144x32 .f32 0x00000000#32)

theorem dots_apply (qh kh : FVec Ideal S16x144x32 .bf16) (w : Fin 16) (n m : Fin 144) :
    dots qh kh (ix3 w n m) = ∑ e : Fin 32, qh (ix3 w n e) * kh (ix3 w m e) :=
  Cert.Lib.BatchedMatmul.matmul_rows_zero_apply _ rfl rfl rfl rfl rfl rfl none qh kh w n m

theorem scores_apply (qk : FVec Ideal S16x144x144 .f32) (bias : Vec Ideal S16x1x144x144 .bf16)
    (mk : FVec Ideal S16x144x144 .f32) (w : Fin 16) (n m : Fin 144) :
    scores qk bias mk (ix3 w n m) = (qk (ix3 w n m) + bias (ix4 w (0 : Fin 1) n m)) + mk (ix3 w n m) := by
  show (qk (ix3 w n m) + shapeCast S16x144x144 bias shapeCasts_S16x1x144x144_S16x144x144 (ix3 w n m)) + mk (ix3 w n m) = _
  rw [Cert.Lib.BlockLayouts.shapeCast_a1bc_abc_apply]

theorem weights_apply (s : FVec Ideal S16x144x144 .f32) (w : Fin 16) (n m : Fin 144) :
    weights s (ix3 w n m)
      = Ideal.exp (s (ix3 w n m) - max negInf ((Finset.univ : Finset (Fin 144)).fold max negInf (fun m' => s (ix3 w n m')))) := by
  show Ideal.exp (s (ix3 w n m) - broadcastTo S16x144x144 (shapeCast S16x144x1
    (maximumf (broadcast S16x144 (Scalar.ofBits .f32 0xFF800000#32))
      (multiReduction .maximumf [2] S16x144 s 0xFF800000#32 reduces_S16x144x144_S16x144 (.inl rfl) rfl))
    shapeCasts_S16x144_S16x144x1) broadcasts_S16x144x1_S16x144x144 (ix3 w n m)) = _
  refine congrArg (fun z => Ideal.exp (s (ix3 w n m) - z)) ?_
  refine (Cert.Lib.BlockLayouts.broadcastTo_ab1_abc_apply _ _ w n m).trans ?_
  refine (Cert.Lib.AxisFolds.shapeCast_ab_ab1_apply _ _ w n (0 : Fin 1)).trans ?_
  refine congrArg (fun z => max (Ideal.ofBits .f32 0xFF800000#32) z) ?_
  exact Cert.Lib.BlockLayouts.multiReduction_max_last3_apply s 0xFF800000#32 reduces_S16x144x144_S16x144 (.inl rfl) rfl w n

theorem mixed_apply (ex : FVec Ideal S16x144x144 .f32) (vh : FVec Ideal S16x144x32 .bf16) (w : Fin 16) (n : Fin 144) (e : Fin 32) :
    mixed ex vh (ix3 w n e)
      = ∑ m : Fin 144, Ideal.div (ex (ix3 w n m)) (∑ m' : Fin 144, ex (ix3 w n m')) * vh (ix3 w m e) := by
  refine (Cert.Lib.BatchedMatmul.matmul_cols_zero_apply _ rfl rfl rfl rfl rfl rfl none _ vh w n e).trans ?_
  refine Finset.sum_congr rfl fun m _ => ?_
  refine congrArg (· * vh (ix3 w m e)) ?_
  show Ideal.div (ex (ix3 w n m)) (broadcastTo S16x144x144 (shapeCast S16x144x1
      (multiReduction .add [2] S16x144 ex 0x00000000#32 reduces_S16x144x144_S16x144 (.inl rfl) rfl)
      shapeCasts_S16x144_S16x144x1) broadcasts_S16x144x1_S16x144x144 (ix3 w n m)) = _
  refine congrArg (fun z => Ideal.div (ex (ix3 w n m)) z) ?_
  refine (Cert.Lib.BlockLayouts.broadcastTo_ab1_abc_apply _ _ w n m).trans ?_
  refine (Cert.Lib.AxisFolds.shapeCast_ab_ab1_apply _ _ w n (0 : Fin 1)).trans ?_
  exact Cert.Lib.AxisFolds.multiReduction_add_last3_apply ex 0x00000000#32 reduces_S16x144x144_S16x144 (.inl rfl) rfl w n

/-! ## The steps are the window's quantities -/

variable (I : Inputs) (h : Fin 6) (w : Fin 16)

/-- With the head's query rows (already scaled), key rows, bias and the mask those of window `w`, the scores are the
    window's. -/
theorem scores_eq (qh kh : FVec Ideal S16x144x32 .bf16) (bias : Vec Ideal S16x1x144x144 .bf16) (mk : FVec Ideal S16x144x144 .f32)
    (hq : ∀ (n : Fin 144) (e : Fin 32), qh (ix3 w n e) = qkv I n (chan 0 h e) * scale)
    (hk : ∀ (n : Fin 144) (e : Fin 32), kh (ix3 w n e) = qkv I n (chan 1 h e))
    (hb : ∀ n m : Fin 144, bias (ix4 w (0 : Fin 1) n m) = I.bias h n m)
    (hm : ∀ n m : Fin 144, mk (ix3 w n m) = I.mask n m) (n m : Fin 144) :
    scores (dots qh kh) bias mk (ix3 w n m) = score I h n m := by
  rw [scores_apply, dots_apply, hb, hm]
  unfold score
  refine congrArg (fun z => z + I.bias h n m + I.mask n m) ?_
  exact Finset.sum_congr rfl fun e _ => by rw [hq, hk]

/-- From scores that are the window's, the weights are the window's. -/
theorem weights_eq (s : FVec Ideal S16x144x144 .f32) (hs : ∀ n m : Fin 144, s (ix3 w n m) = score I h n m) (n m : Fin 144) :
    weights s (ix3 w n m) = weight I h n m := by
  rw [weights_apply, hs]
  unfold weight rowMax
  have hf : (fun m' => s (ix3 w n m')) = fun m' => score I h n m' := funext fun m' => hs n m'
  rw [hf]

/-- From weights that are the window's and the head's value rows, the head's output is the window's. -/
theorem mixed_eq (ex : FVec Ideal S16x144x144 .f32) (vh : FVec Ideal S16x144x32 .bf16)
    (hx : ∀ n m : Fin 144, ex (ix3 w n m) = weight I h n m)
    (hv : ∀ (m : Fin 144) (e : Fin 32), vh (ix3 w m e) = qkv I m (chan 2 h e)) (n : Fin 144) (e : Fin 32) :
    mixed ex vh (ix3 w n e) = mix I h n e := by
  rw [mixed_apply]
  unfold mix prob
  refine Finset.sum_congr rfl fun m _ => ?_
  have hsum : (∑ m' : Fin 144, ex (ix3 w n m')) = ∑ m' : Fin 144, weight I h n m' :=
    Finset.sum_congr rfl fun m' _ => hx n m'
  rw [hx, hv, hsum]

end Cert.KernelAttn

end
-- ==== Proof.LibMergeLeadingAxes.lean ====
/-
  Merging the two leading axes of a rank-3 array into one, and splitting them again, read at coordinates.

  In row-major order entry `(r, t, k)` of an `[a, b, c]` array sits at position `(r * b + t) * c + k`, which is
  where entry `(r * b + t, k)` of an `[n, c]` array sits. So a reshape of `[a, b, c]` to `[n, c]` reads, at row
  `p = r * b + t` and column `k`, the operand at `(r, t, k)`; and the reshape back reads, at `(r, t, k)`, the operand
  at row `p`, column `k`. Stated for any element type and any extents, with indices written by their coordinates;
  the merged extent `n` is a parameter so that a printed literal (`512` for `8 * 64`) unifies.
-/
import Idealize.ShloMosaic.Lib.Pipeline.Value
import Idealize.ShloMosaic.Lib.ValueIdx

namespace Idealize.ShloMosaic.MergeLeadingAxes

open Idealize.ShloMosaic Idealize.ShloMosaic.ValueIdx

variable {α : Type}

/-- An `[a, b, c]` array reshaped to `[n, c]` reads, at `(p, k)` with `p = r * b + t`, the operand at `(r, t, k)`. -/
theorem shapeCast_abc_nc_apply {a b c n : ℕ} (x : (⟨3, ![a, b, c]⟩ : Shape).Idx → α)
    (h : (⟨3, ![a, b, c]⟩ : Shape).ShapeCasts ⟨2, ![n, c]⟩) (r : Fin a) (t : Fin b) (k : Fin c) (p : Fin n)
    (hp : p.val = r.val * b + t.val) :
    shapeCast ⟨2, ![n, c]⟩ x h (ix2 p k) = x (ix3 r t k) :=
  shapeCast_apply x h _ _ (by
    rw [Shape.rowMajor_val_three, Shape.rowMajor_val_two]
    show (r.val * b + t.val) * c + k.val = p.val * c + k.val
    rw [hp])

/-- An `[n, c]` array reshaped to `[a, b, c]` reads, at `(r, t, k)`, the operand at `(p, k)` with `p = r * b + t`. -/
theorem shapeCast_nc_abc_apply {a b c n : ℕ} (x : (⟨2, ![n, c]⟩ : Shape).Idx → α)
    (h : (⟨2, ![n, c]⟩ : Shape).ShapeCasts ⟨3, ![a, b, c]⟩) (r : Fin a) (t : Fin b) (k : Fin c) (p : Fin n)
    (hp : p.val = r.val * b + t.val) :
    shapeCast ⟨3, ![a, b, c]⟩ x h (ix3 r t k) = x (ix2 p k) :=
  shapeCast_apply x h _ _ (by
    rw [Shape.rowMajor_val_three, Shape.rowMajor_val_two]
    show p.val * c + k.val = (r.val * b + t.val) * c + k.val
    rw [hp])

end Idealize.ShloMosaic.MergeLeadingAxes
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.KernelProjection.lean ====
/-
  The pointwise values of one grid point's body, read at coordinates.

  The body first re-lays the activation block `[1, 16, 144, 192]` as a matrix of `16·144` rows, row `w·144 + n` holding
  window `w`'s token `n`, multiplies it by the fused projection's weights, splits the rows back into windows and
  tokens, and adds the projection's bias along the last axis; so its entry `(w, n, k)` is the fused projection of
  window `w`'s token `n` at channel `k`.  The query, key and value arrays are the runs of 192 channels of that array
  starting at 0, 192 and 384, the query one scaled; a head's 32 coordinates are a run of 32 channels of those.  The
  mask block drops its leading unit axis, the bias block is loaded one head at a time, and the output projection is
  the same re-laying, matrix product and bias as the fused one.
-/
import proofs.«127267_j4844723109913_2_alg».proof.Proof.Gen.KernelIdeal.Frame
import proofs.«127267_j4844723109913_2_alg».proof.Proof.AttnArrays
import proofs.«127267_j4844723109913_2_alg».proof.Proof.LibMergeLeadingAxes
import proofs.«127267_j4844723109913_2_alg».proof.Proof.LibPlainMatmul
import proofs.«127267_j4844723109913_2_alg».proof.Proof.LibBlockLayouts
import Idealize.ShloMosaic.Lib.ValueLayout

noncomputable section

namespace Cert.KernelAttn

open Cert.KernelIdeal Cert.KernelIdeal.Gen Idealize.ShloMosaic Idealize.ShloMosaic.ValueIdx Cert.Attn
open Idealize.ShloMosaic.MergeLeadingAxes Cert.Lib.PlainMatmul Cert.Lib.BlockLayouts

/-- The body's fused array at window `w`, token `n`, channel `k` is the fused projection of that window's token. -/
theorem fused_eq (x0 : Vec Ideal S1x16x144x192 .f32) (x1 : Vec Ideal S1x16x144x144 .f32)
    (x2 : Vec Ideal S16x6x144x144 .bf16) (x3 : Vec Ideal S192x576 .f32) (x4 : Vec Ideal S576 .f32)
    (x5 : Vec Ideal S192x192 .f32) (x6 : Vec Ideal S192 .f32) (w : Fin 16) (n : Fin 144) (k : Fin 576) :
    k0_pay2 (F := Ideal) x0 x3 x4 (ix3 w n k) = qkv (blockWindow x0 x1 x2 x3 x4 x5 x6 w) n k := by
  unfold k0_pay2
  show (_ : EReal) + _ = (∑ c : Fin 192, x0 (ix4 0 w n c) * x3 (ix2 c k)) + x4 (ix1 k)
  refine congrArg₂ (fun a b : EReal => a + b) ?_ ?_
  · refine (shapeCast_nc_abc_apply _ _ w n k ⟨w.val * 144 + n.val, by have := w.isLt; have := n.isLt; omega⟩ rfl).trans ?_
    refine (matmul_zero_apply _ rfl rfl rfl rfl rfl rfl none _ _ _ _).trans ?_
    refine Finset.sum_congr rfl fun c _ => ?_
    refine congrArg₂ (fun a b : EReal => a * b) ?_ rfl
    refine (shapeCast_abc_nc_apply _ _ w n c ⟨w.val * 144 + n.val, by have := w.isLt; have := n.isLt; omega⟩ rfl).trans ?_
    exact shapeCast_1abc_abc_apply x0 _ w n c
  · refine (broadcastTo_11n_abn_apply _ _ w n k).trans ?_
    exact shapeCast_n_11n_apply x4 _ 0 0 k

/-- The query array at channel `c`: the fused projection at channel `c`, scaled. -/
theorem query_eq (x0 : Vec Ideal S1x16x144x192 .f32) (x1 : Vec Ideal S1x16x144x144 .f32)
    (x2 : Vec Ideal S16x6x144x144 .bf16) (x3 : Vec Ideal S192x576 .f32) (x4 : Vec Ideal S576 .f32)
    (x5 : Vec Ideal S192x192 .f32) (x6 : Vec Ideal S192 .f32) (w : Fin 16) (n : Fin 144) (c : Fin 192) (k : Fin 576) (hk : k.val = c.val) :
    k0_pay3 (F := Ideal) x0 x3 x4 (ix3 w n c) = qkv (blockWindow x0 x1 x2 x3 x4 x5 x6 w) n k * Cert.Attn.scale := by
  unfold k0_pay3
  show (_ : EReal) * _ = _ * _
  refine congrArg₂ (fun a b : EReal => a * b) ?_ rfl
  refine (slice3_last_apply 0 _ _ w n c k (by omega)).trans ?_
  exact fused_eq x0 x1 x2 x3 x4 x5 x6 w n k

/-- The key array at channel `c`: the fused projection at channel `192 + c`. -/
theorem key_eq (x0 : Vec Ideal S1x16x144x192 .f32) (x1 : Vec Ideal S1x16x144x144 .f32)
    (x2 : Vec Ideal S16x6x144x144 .bf16) (x3 : Vec Ideal S192x576 .f32) (x4 : Vec Ideal S576 .f32)
    (x5 : Vec Ideal S192x192 .f32) (x6 : Vec Ideal S192 .f32) (w : Fin 16) (n : Fin 144) (c : Fin 192) (k : Fin 576) (hk : k.val = 192 + c.val) :
    k0_pay4 (F := Ideal) x0 x3 x4 (ix3 w n c) = qkv (blockWindow x0 x1 x2 x3 x4 x5 x6 w) n k := by
  unfold k0_pay4
  refine (slice3_last_apply 192 _ _ w n c k hk).trans ?_
  exact fused_eq x0 x1 x2 x3 x4 x5 x6 w n k

/-- The value array at channel `c`: the fused projection at channel `384 + c`. -/
theorem value_eq (x0 : Vec Ideal S1x16x144x192 .f32) (x1 : Vec Ideal S1x16x144x144 .f32)
    (x2 : Vec Ideal S16x6x144x144 .bf16) (x3 : Vec Ideal S192x576 .f32) (x4 : Vec Ideal S576 .f32)
    (x5 : Vec Ideal S192x192 .f32) (x6 : Vec Ideal S192 .f32) (w : Fin 16) (n : Fin 144) (c : Fin 192) (k : Fin 576) (hk : k.val = 384 + c.val) :
    k0_pay5 (F := Ideal) x0 x3 x4 (ix3 w n c) = qkv (blockWindow x0 x1 x2 x3 x4 x5 x6 w) n k := by
  unfold k0_pay5
  refine (slice3_last_apply 384 _ _ w n c k hk).trans ?_
  exact fused_eq x0 x1 x2 x3 x4 x5 x6 w n k

/-- The mask block with its leading unit axis dropped. -/
theorem mask_eq (x1 : Vec Ideal S1x16x144x144 .f32) (w : Fin 16) (n m : Fin 144) :
    k0_pay6 (F := Ideal) x1 (ix3 w n m) = x1 (ix4 (0 : Fin 1) w n m) := by
  unfold k0_pay6
  exact shapeCast_1abc_abc_apply x1 _ w n m

/-- The output projection of an array `v` of head outputs, at window `w`, token `n`, channel `j`. -/
theorem outProj_apply (x5 : Vec Ideal S192x192 .f32) (x6 : Vec Ideal S192 .f32) (w : Fin 16) (n : Fin 144)
    (v : FVec Ideal S16x144x192 .bf16) (j : Fin 192) :
    k0_pay1 (F := Ideal) v x5 x6 (ix4 (0 : Fin 1) w n j) = (∑ c : Fin 192, v (ix3 w n c) * x5 (ix2 c j)) + x6 (ix1 j) := by
  unfold k0_pay1
  refine (shapeCast_abc_1abc_apply _ _ 0 w n j).trans ?_
  show (_ : EReal) + _ = _
  refine congrArg₂ (fun a b : EReal => a + b) ?_ ?_
  · refine (shapeCast_nc_abc_apply _ _ w n j ⟨w.val * 144 + n.val, by have := w.isLt; have := n.isLt; omega⟩ rfl).trans ?_
    refine (matmul_zero_apply _ rfl rfl rfl rfl rfl rfl none _ _ _ _).trans ?_
    refine Finset.sum_congr rfl fun c _ => ?_
    refine congrArg₂ (fun a b : EReal => a * b) ?_ rfl
    exact shapeCast_abc_nc_apply v _ w n c ⟨w.val * 144 + n.val, by have := w.isLt; have := n.isLt; omega⟩ rfl
  · refine (broadcastTo_11n_abn_apply _ _ w n j).trans ?_
    exact shapeCast_n_11n_apply x6 _ 0 0 j

/-- Head 0's rows of the bias block: the load of the block's rectangle at head 0. -/
theorem biasLoad0 (x2 : Vec Ideal S16x6x144x144 .bf16) (w : Fin 16) (n m : Fin 144) :
    View.ld x2 r0_4 (ix4 w (0 : Fin 1) n m) = x2 (ix4 w (0 : Fin 6) n m) := by
  show x2 _ = x2 _
  congr 1
  funext a
  apply Fin.ext
  match a with
  | ⟨0, _⟩ => show 0 + 1 * w.val = w.val; omega
  | ⟨1, _⟩ => show 0 + 1 * 0 = 0; omega
  | ⟨2, _⟩ => show 0 + 1 * n.val = n.val; omega
  | ⟨3, _⟩ => show 0 + 1 * m.val = m.val; omega

/-- Head 1's rows of the bias block: the load of the block's rectangle at head 1. -/
theorem biasLoad1 (x2 : Vec Ideal S16x6x144x144 .bf16) (w : Fin 16) (n m : Fin 144) :
    View.ld x2 r0_5 (ix4 w (0 : Fin 1) n m) = x2 (ix4 w (1 : Fin 6) n m) := by
  show x2 _ = x2 _
  congr 1
  funext a
  apply Fin.ext
  match a with
  | ⟨0, _⟩ => show 0 + 1 * w.val = w.val; omega
  | ⟨1, _⟩ => show 1 + 1 * 0 = 1; omega
  | ⟨2, _⟩ => show 0 + 1 * n.val = n.val; omega
  | ⟨3, _⟩ => show 0 + 1 * m.val = m.val; omega

/-- Head 2's rows of the bias block: the load of the block's rectangle at head 2. -/
theorem biasLoad2 (x2 : Vec Ideal S16x6x144x144 .bf16) (w : Fin 16) (n m : Fin 144) :
    View.ld x2 r0_6 (ix4 w (0 : Fin 1) n m) = x2 (ix4 w (2 : Fin 6) n m) := by
  show x2 _ = x2 _
  congr 1
  funext a
  apply Fin.ext
  match a with
  | ⟨0, _⟩ => show 0 + 1 * w.val = w.val; omega
  | ⟨1, _⟩ => show 2 + 1 * 0 = 2; omega
  | ⟨2, _⟩ => show 0 + 1 * n.val = n.val; omega
  | ⟨3, _⟩ => show 0 + 1 * m.val = m.val; omega

/-- Head 3's rows of the bias block: the load of the block's rectangle at head 3. -/
theorem biasLoad3 (x2 : Vec Ideal S16x6x144x144 .bf16) (w : Fin 16) (n m : Fin 144) :
    View.ld x2 r0_7 (ix4 w (0 : Fin 1) n m) = x2 (ix4 w (3 : Fin 6) n m) := by
  show x2 _ = x2 _
  congr 1
  funext a
  apply Fin.ext
  match a with
  | ⟨0, _⟩ => show 0 + 1 * w.val = w.val; omega
  | ⟨1, _⟩ => show 3 + 1 * 0 = 3; omega
  | ⟨2, _⟩ => show 0 + 1 * n.val = n.val; omega
  | ⟨3, _⟩ => show 0 + 1 * m.val = m.val; omega

/-- Head 4's rows of the bias block: the load of the block's rectangle at head 4. -/
theorem biasLoad4 (x2 : Vec Ideal S16x6x144x144 .bf16) (w : Fin 16) (n m : Fin 144) :
    View.ld x2 r0_8 (ix4 w (0 : Fin 1) n m) = x2 (ix4 w (4 : Fin 6) n m) := by
  show x2 _ = x2 _
  congr 1
  funext a
  apply Fin.ext
  match a with
  | ⟨0, _⟩ => show 0 + 1 * w.val = w.val; omega
  | ⟨1, _⟩ => show 4 + 1 * 0 = 4; omega
  | ⟨2, _⟩ => show 0 + 1 * n.val = n.val; omega
  | ⟨3, _⟩ => show 0 + 1 * m.val = m.val; omega

/-- Head 5's rows of the bias block: the load of the block's rectangle at head 5. -/
theorem biasLoad5 (x2 : Vec Ideal S16x6x144x144 .bf16) (w : Fin 16) (n m : Fin 144) :
    View.ld x2 r0_9 (ix4 w (0 : Fin 1) n m) = x2 (ix4 w (5 : Fin 6) n m) := by
  show x2 _ = x2 _
  congr 1
  funext a
  apply Fin.ext
  match a with
  | ⟨0, _⟩ => show 0 + 1 * w.val = w.val; omega
  | ⟨1, _⟩ => show 5 + 1 * 0 = 5; omega
  | ⟨2, _⟩ => show 0 + 1 * n.val = n.val; omega
  | ⟨3, _⟩ => show 0 + 1 * m.val = m.val; omega

/-- A head's 32 coordinates of the query, key or value array (`s = 0, 1, 2`): the run of 32 channels starting at
    `h·32`, narrowed, holds the fused projection at channel `s·192 + h·32 + e`, under whatever map `f` the array
    applies to it. -/
theorem headRows (I : Inputs) (w : Fin 16) (s : Fin 3) (v : FVec Ideal S16x144x192 .f32) (f : EReal → EReal)
    (hv : ∀ (n : Fin 144) (c : Fin 192) (k : Fin 576), k.val = s.val * 192 + c.val → v (ix3 w n c) = f (qkv I n k))
    (h : Fin 6) (o : ℕ) (ho : o = h.val * 32) (hs : S16x144x192.Slices ![0, 0, o] S16x144x32) (n : Fin 144) (e : Fin 32) :
    (truncf .bf16 (extractStridedSlice S16x144x32 ![0, 0, o] v hs) bitsLt_bf16_f32 : FVec Ideal S16x144x32 .bf16) (ix3 w n e)
      = f (qkv I n (chan s h e)) := by
  refine (slice3_last_apply o v hs w n e ⟨o + e.val, by have := h.isLt; have := e.isLt; omega⟩ rfl).trans ?_
  refine hv n _ _ ?_
  show s.val * 192 + h.val * 32 + e.val = s.val * 192 + (o + e.val)
  omega

end Cert.KernelAttn

end
-- ==== Proof.KernelConcat.lean ====
/-
  The six heads' outputs laid side by side.

  The kernel's body joins six arrays [16, 144, 32], one per head, along the last axis into [16, 144, 192].  Channel c of
  the joined array lies in the span of piece c / 32, at offset c % 32 inside it, the pieces before it taking up
  32 * (c / 32) channels; the other two coordinates are kept.  So the joined array at (w, n, c) is head c / 32's array at
  (w, n, c % 32).
-/
import Idealize.ShloMosaic.Lib.ValueIdx
import Idealize.ShloMosaic.Lib.Pipeline.Value
import proofs.«127267_j4844723109913_2_alg».proof.Proof.Gen.KernelIdeal.Skeleton
import proofs.«127267_j4844723109913_2_alg».proof.Proof.AttnWindow

noncomputable section

namespace Cert.KernelAttn

open Cert.KernelIdeal Cert.KernelIdeal.Gen Idealize.ShloMosaic Idealize.ShloMosaic.ValueIdx Cert.Attn

/-- The join of the six heads' arrays along the channel axis, read at window w, token n, channel c: head c / 32's array
    at coordinate c % 32. -/
theorem concat_apply (F : Fin 6 → FVec Ideal S16x144x32 .f32) (w : Fin 16) (n : Fin 144) (c : Fin 192) :
    concatenate S16x144x192 2 [⟨S16x144x32, F 0⟩, ⟨S16x144x32, F 1⟩, ⟨S16x144x32, F 2⟩, ⟨S16x144x32, F 3⟩, ⟨S16x144x32, F 4⟩, ⟨S16x144x32, F 5⟩]
      concatenates_S16x144x32_S16x144x32_S16x144x32_S16x144x32_S16x144x32_S16x144x32_S16x144x192_d2 (ix3 w n c)
      = F (headOf c) (ix3 w n (laneOf c)) := by
  have hc := c.isLt
  rcases (show c.val / 32 = 0 ∨ c.val / 32 = 1 ∨ c.val / 32 = 2 ∨ c.val / 32 = 3 ∨ c.val / 32 = 4 ∨ c.val / 32 = 5 by omega)
    with hk | hk | hk | hk | hk | hk
  · have e : headOf c = 0 := Fin.ext hk
    rw [e]
    exact concatenate_apply_piece (t := S16x144x192) 2
      [⟨S16x144x32, F 0⟩, ⟨S16x144x32, F 1⟩, ⟨S16x144x32, F 2⟩, ⟨S16x144x32, F 3⟩, ⟨S16x144x32, F 4⟩, ⟨S16x144x32, F 5⟩]
      concatenates_S16x144x32_S16x144x32_S16x144x32_S16x144x32_S16x144x32_S16x144x32_S16x144x192_d2 (ix3 w n c) 0 (by show 0 < 6; omega) S16x144x32 (F 0) rfl rfl
      0 rfl (ix3 w n (laneOf c))
      (fun b hb => by
        match b with
        | ⟨0, _⟩ => rfl
        | ⟨1, _⟩ => rfl
        | ⟨2, _⟩ => exact absurd rfl hb)
      (by show 0 + c.val % 32 = c.val; omega)
  · have e : headOf c = 1 := Fin.ext hk
    rw [e]
    exact concatenate_apply_piece (t := S16x144x192) 2
      [⟨S16x144x32, F 0⟩, ⟨S16x144x32, F 1⟩, ⟨S16x144x32, F 2⟩, ⟨S16x144x32, F 3⟩, ⟨S16x144x32, F 4⟩, ⟨S16x144x32, F 5⟩]
      concatenates_S16x144x32_S16x144x32_S16x144x32_S16x144x32_S16x144x32_S16x144x32_S16x144x192_d2 (ix3 w n c) 1 (by show 1 < 6; omega) S16x144x32 (F 1) rfl rfl
      32 rfl (ix3 w n (laneOf c))
      (fun b hb => by
        match b with
        | ⟨0, _⟩ => rfl
        | ⟨1, _⟩ => rfl
        | ⟨2, _⟩ => exact absurd rfl hb)
      (by show 32 + c.val % 32 = c.val; omega)
  · have e : headOf c = 2 := Fin.ext hk
    rw [e]
    exact concatenate_apply_piece (t := S16x144x192) 2
      [⟨S16x144x32, F 0⟩, ⟨S16x144x32, F 1⟩, ⟨S16x144x32, F 2⟩, ⟨S16x144x32, F 3⟩, ⟨S16x144x32, F 4⟩, ⟨S16x144x32, F 5⟩]
      concatenates_S16x144x32_S16x144x32_S16x144x32_S16x144x32_S16x144x32_S16x144x32_S16x144x192_d2 (ix3 w n c) 2 (by show 2 < 6; omega) S16x144x32 (F 2) rfl rfl
      64 rfl (ix3 w n (laneOf c))
      (fun b hb => by
        match b with
        | ⟨0, _⟩ => rfl
        | ⟨1, _⟩ => rfl
        | ⟨2, _⟩ => exact absurd rfl hb)
      (by show 64 + c.val % 32 = c.val; omega)
  · have e : headOf c = 3 := Fin.ext hk
    rw [e]
    exact concatenate_apply_piece (t := S16x144x192) 2
      [⟨S16x144x32, F 0⟩, ⟨S16x144x32, F 1⟩, ⟨S16x144x32, F 2⟩, ⟨S16x144x32, F 3⟩, ⟨S16x144x32, F 4⟩, ⟨S16x144x32, F 5⟩]
      concatenates_S16x144x32_S16x144x32_S16x144x32_S16x144x32_S16x144x32_S16x144x32_S16x144x192_d2 (ix3 w n c) 3 (by show 3 < 6; omega) S16x144x32 (F 3) rfl rfl
      96 rfl (ix3 w n (laneOf c))
      (fun b hb => by
        match b with
        | ⟨0, _⟩ => rfl
        | ⟨1, _⟩ => rfl
        | ⟨2, _⟩ => exact absurd rfl hb)
      (by show 96 + c.val % 32 = c.val; omega)
  · have e : headOf c = 4 := Fin.ext hk
    rw [e]
    exact concatenate_apply_piece (t := S16x144x192) 2
      [⟨S16x144x32, F 0⟩, ⟨S16x144x32, F 1⟩, ⟨S16x144x32, F 2⟩, ⟨S16x144x32, F 3⟩, ⟨S16x144x32, F 4⟩, ⟨S16x144x32, F 5⟩]
      concatenates_S16x144x32_S16x144x32_S16x144x32_S16x144x32_S16x144x32_S16x144x32_S16x144x192_d2 (ix3 w n c) 4 (by show 4 < 6; omega) S16x144x32 (F 4) rfl rfl
      128 rfl (ix3 w n (laneOf c))
      (fun b hb => by
        match b with
        | ⟨0, _⟩ => rfl
        | ⟨1, _⟩ => rfl
        | ⟨2, _⟩ => exact absurd rfl hb)
      (by show 128 + c.val % 32 = c.val; omega)
  · have e : headOf c = 5 := Fin.ext hk
    rw [e]
    exact concatenate_apply_piece (t := S16x144x192) 2
      [⟨S16x144x32, F 0⟩, ⟨S16x144x32, F 1⟩, ⟨S16x144x32, F 2⟩, ⟨S16x144x32, F 3⟩, ⟨S16x144x32, F 4⟩, ⟨S16x144x32, F 5⟩]
      concatenates_S16x144x32_S16x144x32_S16x144x32_S16x144x32_S16x144x32_S16x144x32_S16x144x192_d2 (ix3 w n c) 5 (by show 5 < 6; omega) S16x144x32 (F 5) rfl rfl
      160 rfl (ix3 w n (laneOf c))
      (fun b hb => by
        match b with
        | ⟨0, _⟩ => rfl
        | ⟨1, _⟩ => rfl
        | ⟨2, _⟩ => exact absurd rfl hb)
      (by show 160 + c.val % 32 = c.val; omega)

end Cert.KernelAttn
-- ==== Proof.KernelHeads.lean ====
/-
  The six heads of a grid point and their concatenation.

  A head takes the 32 channels from `32·h` of the scaled queries, of the keys and of the values, the head's bias
  block and the mask, and runs the four steps of one head; the body lays the six heads' outputs side by side as
  192 channels.  Read at window `w`, token `n` and channel `c`, the concatenation is head `c / 32`'s output of the
  attention window at coordinate `c % 32`.
-/
import proofs.«127267_j4844723109913_2_alg».proof.Proof.KernelHead
import proofs.«127267_j4844723109913_2_alg».proof.Proof.KernelProjection
import proofs.«127267_j4844723109913_2_alg».proof.Proof.KernelConcat

noncomputable section

namespace Cert.KernelAttn

open Cert.KernelIdeal Cert.KernelIdeal.Gen Idealize.ShloMosaic Idealize.ShloMosaic.ValueIdx Cert.Attn

/-- The 32 channels from `o` of every token of every window. -/
abbrev rows (o : ℕ) (hs : S16x144x192.Slices ![0, 0, o] S16x144x32) (v : FVec Ideal S16x144x192 .f32) :
    FVec Ideal S16x144x32 .bf16 :=
  truncf .bf16 (extractStridedSlice S16x144x32 ![0, 0, o] v hs) bitsLt_bf16_f32

/-- One head from the scaled queries `Q`, the keys `K`, the values `V`, the mask `M` and the head's bias block `b`. -/
def headOut (o : ℕ) (hs : S16x144x192.Slices ![0, 0, o] S16x144x32) (Q K V : FVec Ideal S16x144x192 .f32)
    (M : FVec Ideal S16x144x144 .f32) (b : Vec Ideal S16x1x144x144 .bf16) : FVec Ideal S16x144x32 .f32 :=
  mixed (weights (scores (dots (rows o hs Q) (rows o hs K)) b M)) (rows o hs V)

section Window
variable (I : Inputs) (w : Fin 16) (Q K V : FVec Ideal S16x144x192 .f32) (M : FVec Ideal S16x144x144 .f32)
  (hQ : ∀ (n : Fin 144) (c : Fin 192) (k : Fin 576), k.val = (0 : Fin 3).val * 192 + c.val → Q (ix3 w n c) = (fun z => z * scale) (qkv I n k))
  (hK : ∀ (n : Fin 144) (c : Fin 192) (k : Fin 576), k.val = (1 : Fin 3).val * 192 + c.val → K (ix3 w n c) = (fun z => z) (qkv I n k))
  (hV : ∀ (n : Fin 144) (c : Fin 192) (k : Fin 576), k.val = (2 : Fin 3).val * 192 + c.val → V (ix3 w n c) = (fun z => z) (qkv I n k))
  (hM : ∀ n m : Fin 144, M (ix3 w n m) = I.mask n m)

include hQ hK hV hM in
/-- With the queries, keys, values and mask those of window `w` and the bias block head `h`'s, the head's output at
    window `w` is the attention window's. -/
theorem headOut_eq (h : Fin 6) (o : ℕ) (ho : o = h.val * 32) (hs : S16x144x192.Slices ![0, 0, o] S16x144x32)
    (b : Vec Ideal S16x1x144x144 .bf16) (hb : ∀ n m : Fin 144, b (ix4 w (0 : Fin 1) n m) = I.bias h n m)
    (n : Fin 144) (e : Fin 32) : headOut o hs Q K V M b (ix3 w n e) = mix I h n e :=
  mixed_eq I h w _ _
    (weights_eq I h w _ (scores_eq I h w _ _ b M
      (headRows I w 0 Q (fun z => z * scale) hQ h o ho hs)
      (headRows I w 1 K (fun z => z) hK h o ho hs) hb hM))
    (headRows I w 2 V (fun z => z) hV h o ho hs) n e

include hQ hK hV hM in
/-- The six heads laid side by side, read at channel `c`: head `c / 32` of the attention window at `c % 32`. -/
theorem heads_eq (b0 b1 b2 b3 b4 b5 : Vec Ideal S16x1x144x144 .bf16)
    (hb0 : ∀ n m : Fin 144, b0 (ix4 w (0 : Fin 1) n m) = I.bias 0 n m)
    (hb1 : ∀ n m : Fin 144, b1 (ix4 w (0 : Fin 1) n m) = I.bias 1 n m)
    (hb2 : ∀ n m : Fin 144, b2 (ix4 w (0 : Fin 1) n m) = I.bias 2 n m)
    (hb3 : ∀ n m : Fin 144, b3 (ix4 w (0 : Fin 1) n m) = I.bias 3 n m)
    (hb4 : ∀ n m : Fin 144, b4 (ix4 w (0 : Fin 1) n m) = I.bias 4 n m)
    (hb5 : ∀ n m : Fin 144, b5 (ix4 w (0 : Fin 1) n m) = I.bias 5 n m)
    (n : Fin 144) (c : Fin 192) :
    k0_pay17 (F := Ideal) Q K V M
      (headOut 0 slices_S16x144x192_o0_0_0_S16x144x32 Q K V M b0)
      (headOut 32 slices_S16x144x192_o0_0_32_S16x144x32 Q K V M b1)
      (headOut 64 slices_S16x144x192_o0_0_64_S16x144x32 Q K V M b2)
      (headOut 96 slices_S16x144x192_o0_0_96_S16x144x32 Q K V M b3)
      (k0_pay15 V) (k0_pay16 Q K) b4 b5 (ix3 w n c) = mix I (headOf c) n (laneOf c) := by
  let F : Fin 6 → FVec Ideal S16x144x32 .f32 := fun h => match h with
    | 0 => headOut 0 slices_S16x144x192_o0_0_0_S16x144x32 Q K V M b0
    | 1 => headOut 32 slices_S16x144x192_o0_0_32_S16x144x32 Q K V M b1
    | 2 => headOut 64 slices_S16x144x192_o0_0_64_S16x144x32 Q K V M b2
    | 3 => headOut 96 slices_S16x144x192_o0_0_96_S16x144x32 Q K V M b3
    | 4 => headOut 128 slices_S16x144x192_o0_0_128_S16x144x32 Q K V M b4
    | 5 => headOut 160 slices_S16x144x192_o0_0_160_S16x144x32 Q K V M b5
  have hF : ∀ (h : Fin 6) (n : Fin 144) (e : Fin 32), F h (ix3 w n e) = mix I h n e := by
    intro h n e
    match h with
    | 0 => exact headOut_eq I w Q K V M hQ hK hV hM 0 0 rfl _ b0 hb0 n e
    | 1 => exact headOut_eq I w Q K V M hQ hK hV hM 1 32 rfl _ b1 hb1 n e
    | 2 => exact headOut_eq I w Q K V M hQ hK hV hM 2 64 rfl _ b2 hb2 n e
    | 3 => exact headOut_eq I w Q K V M hQ hK hV hM 3 96 rfl _ b3 hb3 n e
    | 4 => exact headOut_eq I w Q K V M hQ hK hV hM 4 128 rfl _ b4 hb4 n e
    | 5 => exact headOut_eq I w Q K V M hQ hK hV hM 5 160 rfl _ b5 hb5 n e
  exact (concat_apply F w n c).trans (hF (headOf c) n (laneOf c))

end Window

end Cert.KernelAttn

end
-- ==== Proof.KernelBlock.lean ====
/-
  One grid point of the attention kernel: what the body leaves in the output block.

  The body stores one value through the whole output block: the six heads' outputs of the point's sixteen windows,
  laid side by side, through the output projection.  Each head works on the fused projection of the point's
  activation block — its scaled query part, its key part and its value part — on the mask block and on its own
  bias block.  Read at window `w`, token `n` and channel `j`, the stored value is the attention window's result
  for the inputs that window `w` of the point's blocks holds.
-/
import proofs.«127267_j4844723109913_2_alg».proof.Proof.Gen.KernelIdeal.Frame
import proofs.«127267_j4844723109913_2_alg».proof.Proof.AttnArrays
import proofs.«127267_j4844723109913_2_alg».proof.Proof.KernelHeads

noncomputable section

namespace Cert.KernelAttn

open Cert.KernelIdeal Cert.KernelIdeal.Gen Idealize.ShloMosaic Idealize.ShloMosaic.ValueIdx Cert.Attn

theorem zeros4 : (![0, 0, 0, 0] : Fin 4 → ℕ) = fun _ => 0 := funext fun a => by fin_cases a <;> rfl
theorem zeros2 : (![0, 0] : Fin 2 → ℕ) = fun _ => 0 := funext fun a => by fin_cases a <;> rfl
theorem zeros1 : (![0] : Fin 1 → ℕ) = fun _ => 0 := funext fun a => by fin_cases a <;> rfl

/-- At window `w`, token `n`, channel `j` of a grid point's output block the body leaves the attention
    window's result of that window's blocks. -/
theorem block_out (x0 : Vec Ideal S1x16x144x192 .f32) (x1 : Vec Ideal S1x16x144x144 .f32)
    (x2 : Vec Ideal S16x6x144x144 .bf16) (x3 : Vec Ideal S192x576 .f32) (x4 : Vec Ideal S576 .f32)
    (x5 : Vec Ideal S192x192 .f32) (x6 : Vec Ideal S192 .f32) (w : Fin 16) (n : Fin 144) (j : Fin 192) :
    out0_7 (F := Ideal) x0 x1 x2 x3 x4 x5 x6 (ix4 0 w n j)
      = Cert.Attn.out (Cert.Attn.blockWindow x0 x1 x2 x3 x4 x5 x6 w) n j := by
  have e0 : View.ld x0 r0_0 = x0 := View.ld_unit_zero zeros4 _ x0
  have e3 : View.ld x3 r0_1 = x3 := View.ld_unit_zero zeros2 _ x3
  have e4 : View.ld x4 r0_2 = x4 := View.ld_unit_zero zeros1 _ x4
  have e1 : View.ld x1 r0_3 = x1 := View.ld_unit_zero zeros4 _ x1
  have e5 : View.ld x5 r0_10 = x5 := View.ld_unit_zero zeros2 _ x5
  have e6 : View.ld x6 r0_11 = x6 := View.ld_unit_zero zeros1 _ x6
  unfold out0_7
  rw [View.canon_unit_zero zeros4, e0, e3, e4, e1, e5, e6]
  refine (outProj_apply x5 x6 w n _ j).trans ?_
  refine congrArg₂ (fun a b : EReal => a + b)
    (Finset.sum_congr rfl fun c _ => congrArg₂ (fun a b : EReal => a * b) ?_ rfl) rfl
  exact heads_eq (blockWindow x0 x1 x2 x3 x4 x5 x6 w) w
    (k0_pay3 x0 x3 x4) (k0_pay4 x0 x3 x4) (k0_pay5 x0 x3 x4) (k0_pay6 x1)
    (fun n c k hk => query_eq x0 x1 x2 x3 x4 x5 x6 w n c k (by have : k.val = 0 * 192 + c.val := hk; omega))
    (fun n c k hk => key_eq x0 x1 x2 x3 x4 x5 x6 w n c k (by have : k.val = 1 * 192 + c.val := hk; omega))
    (fun n c k hk => value_eq x0 x1 x2 x3 x4 x5 x6 w n c k (by have : k.val = 2 * 192 + c.val := hk; omega))
    (fun n m => mask_eq x1 w n m)
    (View.ld x2 r0_4) (View.ld x2 r0_5) (View.ld x2 r0_6) (View.ld x2 r0_7) (View.ld x2 r0_8) (View.ld x2 r0_9)
    (fun n m => biasLoad0 x2 w n m) (fun n m => biasLoad1 x2 w n m) (fun n m => biasLoad2 x2 w n m)
    (fun n m => biasLoad3 x2 w n m) (fun n m => biasLoad4 x2 w n m) (fun n m => biasLoad5 x2 w n m)
    n c

end Cert.KernelAttn

end
-- ==== Proof.KernelArrayBias.lean ====
/-
  The position-bias array the kernel's grid reads.

  Before the grid runs, the program turns the `144 × 144` table of position indices into a flat list of 20736
  indices, replaces a negative index `r` by `r + 3312`, and looks each index up in the bias table `[3312, 32, 6]`,
  which gives a table `[20736, 32, 6]`: row `n·144 + m` holds the biases of query token `n` against key token `m`,
  for each of the 32 window types and the 6 heads.  That table is then re-laid as `[144, 144, 32, 6]`, its axes
  permuted to `[32, 6, 144, 144]`, and narrowed to bfloat16, which on the extended reals changes nothing.  So the
  array the grid reads holds at `(w, h, n, m)` the gathered table's entry `(n·144 + m, w, h)`.
-/
import proofs.«127267_j4844723109913_2_alg».proof.Proof.Gen.KernelIdeal.Frame
import proofs.«127267_j4844723109913_2_alg».proof.Proof.AttnArrays
import Idealize.ShloMosaic.Lib.Pipeline.Value
import Idealize.ShloMosaic.Lib.ValueIdx
import Idealize.ShloMosaic.Lib.Tactic

noncomputable section

namespace Cert.KernelAttn

open Cert.KernelIdeal Cert.KernelIdeal.Gen Idealize.ShloMosaic Idealize.ShloMosaic.TcCoe Idealize.ShloMosaic.ValueIdx

/-- The gathered position-bias table as the kernel's host operations compute it from the bias table `a4` and the
    position indices `a7`: the indices flattened, a negative one moved up by 3312, each looked up in `a4`. -/
def gathered (a4 : (⟨Cert.KernelIdeal.S3312x32x6, .f32⟩ : BufTy).Contents (Elt Ideal))
    (a7 : (⟨Cert.KernelIdeal.S144x144, .i32⟩ : BufTy).Contents (Elt Ideal)) :
    (⟨Cert.KernelIdeal.S20736x32x6, .f32⟩ : BufTy).Contents (Elt Ideal) :=
  Host.gather gather_S3312x32x6_S20736x1_S20736x32x6_12_0_n_n_0_1_1326 a4
    (broadcastInDim S20736x1 ![0] bcast_S20736_S20736x1_0
      (select
        (cmpi CmpIPredicate.slt (shapeCast S20736 a7 shapeCasts_S144x144_S20736)
          (broadcastInDim S20736 ![] bcast_S_S20736 (constantI S_ 32 0#32)))
        (addi (shapeCast S20736 a7 shapeCasts_S144x144_S20736)
          (broadcastInDim S20736 ![] bcast_S_S20736 (constantI S_ 32 3312#32)))
        (shapeCast S20736 a7 shapeCasts_S144x144_S20736)))

variable (m : (ℓ : Loc nD τ sig) → Buf (Elt Ideal) ℓ)

/-- The bias array as the grid finds it: the gathered table re-laid, its axes permuted, narrowed. -/
theorem biasArray_eq (c : Dev nD) :
    (V m c main_v10 : S32x6x144x144.Idx → EReal)
      = truncf (F := Ideal) .bf16
          (transpose S32x6x144x144 [2, 3, 0, 1]
            (shapeCast S144x144x32x6
              (gathered (m ((c : Thread nD τ).loc main_arg4)) (m ((c : Thread nD τ).loc main_arg7)))
              shapeCasts_S20736x32x6_S144x144x32x6)
            transposes_S144x144x32x6_S32x6x144x144_2_3_0_1)
          bitsLt_bf16_f32 := by
  dsimp only [Gen.V, Gen.hostOps0]
  after_results
  rfl

/-- Read at window type `w`, head `h`, query token `n`, key token `k`: the gathered table's row `n·144 + k`. -/
theorem biasArray_apply (c : Dev nD) (w : Fin 32) (h : Fin 6) (n k : Fin 144) :
    (V m c main_v10 : S32x6x144x144.Idx → EReal) (ix4 w h n k)
      = gathered (m ((c : Thread nD τ).loc main_arg4)) (m ((c : Thread nD τ).loc main_arg7))
          (ix3 (Cert.Attn.pairPos n k) w h) := by
  rw [biasArray_eq, truncf_apply]
  rw [transpose_apply [2, 3, 0, 1] _ _ (ix4 w h n k) (ix4 n k w h)
    (fun b => by fin_cases b <;> rfl)]
  refine shapeCast_apply _ _ _ _ ?_
  rw [Shape.rowMajor_val_three, Shape.rowMajor_val_four]
  rfl

end Cert.KernelAttn

end
-- ==== Proof.KernelArrayIndex.lean ====
/-
  The grid's index maps, compared.

  The grid has 60 points `(wt, b)`, `wt < 2`, `b < 30`.  At a point the output block and the activation block sit at
  block index `(b, wt, 0, 0)`, the mask block at `(b mod 30, wt, 0, 0)`, which is the same since `b < 30`, the bias block
  at `(wt, 0, 0, 0)`, and the four weight arrays are whole.  Every pair `(b, wt)` is the block index of some point.
  All of this is finite and is checked point by point.
-/
import proofs.«127267_j4844723109913_2_alg».proof.Proof.Gen.KernelIdeal.Frame

noncomputable section

namespace Cert.KernelAttn

open Cert.KernelIdeal Cert.KernelIdeal.Gen Idealize.ShloMosaic

/-- The activation and the mask blocks move with the output block; the bias block follows the output's second block
    coordinate; the weights stay put; and the output's block coordinates stay in range. -/
theorem index_facts : ∀ t : Fin cfg0.N,
    (win0_0.index t (0 : Fin 4) = win0_7.index t (0 : Fin 4) ∧ win0_0.index t (1 : Fin 4) = win0_7.index t (1 : Fin 4)
      ∧ win0_0.index t (2 : Fin 4) = 0 ∧ win0_0.index t (3 : Fin 4) = 0)
    ∧ (win0_1.index t (0 : Fin 4) = win0_7.index t (0 : Fin 4) ∧ win0_1.index t (1 : Fin 4) = win0_7.index t (1 : Fin 4)
      ∧ win0_1.index t (2 : Fin 4) = 0 ∧ win0_1.index t (3 : Fin 4) = 0)
    ∧ (win0_2.index t (0 : Fin 4) = win0_7.index t (1 : Fin 4) ∧ win0_2.index t (1 : Fin 4) = 0
      ∧ win0_2.index t (2 : Fin 4) = 0 ∧ win0_2.index t (3 : Fin 4) = 0)
    ∧ (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ win0_6.index t (0 : Fin 1) = 0
    ∧ (win0_7.index t (0 : Fin 4) ≤ 29 ∧ win0_7.index t (1 : Fin 4) ≤ 1
      ∧ win0_7.index t (2 : Fin 4) = 0 ∧ win0_7.index t (3 : Fin 4) = 0) :=
  (by decide +kernel : ∀ t : Fin grid0.N, _)

/-- Every block index `(b, wt, 0, 0)` with `b < 30`, `wt < 2` is some point's. -/
theorem index_onto : ∀ (b : Fin 30) (wt : Fin 2), ∃ t : Fin cfg0.N, win0_7.index t = ![b.val, wt.val, 0, 0] :=
  (by decide +kernel : ∀ (b : Fin 30) (wt : Fin 2), ∃ t : Fin grid0.N, win0_7.index t = ![b.val, wt.val, 0, 0])

end Cert.KernelAttn

end
-- ==== Proof.KernelArrayBlocks.lean ====
/-
  A grid point's blocks as windows of the whole arrays.

  At the grid point whose output block sits at block index `(b, wt, 0, 0)`, window `w'` of the blocks is window
  `(b, wt·16 + w')` of the arrays: the activation block and the mask block hold the sixteen windows
  `(b, wt·16), …, (b, wt·16 + 15)` of their arrays, the bias block holds window types `wt·16, …, wt·16 + 15` of the
  re-laid bias table, and the weight blocks are the weight arrays.  A block's entry at a block coordinate is the
  array's entry at block index times block extent plus the coordinate, on each axis.
-/
import proofs.«127267_j4844723109913_2_alg».proof.Proof.KernelArrayBias
import proofs.«127267_j4844723109913_2_alg».proof.Proof.KernelArrayIndex

noncomputable section

namespace Cert.KernelAttn

open Cert.KernelIdeal Cert.KernelIdeal.Gen Idealize.ShloMosaic Idealize.ShloMosaic.TcCoe Idealize.ShloMosaic.ValueIdx

variable (m : (ℓ : Loc nD τ sig) → Buf (Elt Ideal) ℓ)

/-- The activation block at window `w'`, token `n`, channel `ch` is the activations at window `(b, w)`. -/
theorem actBlock_apply (c : Dev nD) (t : Fin cfg0.N) (w' : Fin 16) (n : Fin 144) (ch : Fin 192) (b : Fin 30) (w : Fin 32)
    (hb : b.val = win0_7.index t (0 : Fin 4)) (hw : w.val = win0_7.index t (1 : Fin 4) * 16 + w'.val) :
    (iblk m c 0 t : Vec Ideal S1x16x144x192 .f32) (ix4 0 w' n ch)
      = (m ((c : Thread nD τ).loc main_arg0) : S30x32x144x192.Idx → EReal) (ix4 b w n ch) := by
  obtain ⟨⟨e0, e1, e2, e3⟩, -⟩ := index_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 4) * 1 + 1 * 0 = b.val; omega
  | ⟨1, _⟩ => show win0_0.index t (1 : Fin 4) * 16 + 1 * w'.val = w.val; omega
  | ⟨2, _⟩ => show win0_0.index t (2 : Fin 4) * 144 + 1 * n.val = n.val; omega
  | ⟨3, _⟩ => show win0_0.index t (3 : Fin 4) * 192 + 1 * ch.val = ch.val; omega

/-- The mask block at window `w'`, query token `n`, key token `k` is the mask at window `(b, w)`. -/
theorem maskBlock_apply (c : Dev nD) (t : Fin cfg0.N) (w' : Fin 16) (n k : Fin 144) (b : Fin 30) (w : Fin 32)
    (hb : b.val = win0_7.index t (0 : Fin 4)) (hw : w.val = win0_7.index t (1 : Fin 4) * 16 + w'.val) :
    (iblk m c 1 t : Vec Ideal S1x16x144x144 .f32) (ix4 0 w' n k)
      = (m ((c : Thread nD τ).loc main_arg1) : S30x32x144x144.Idx → EReal) (ix4 b w n k) := by
  obtain ⟨-, ⟨e0, e1, e2, e3⟩, -⟩ := index_facts t
  unfold iblk
  rw [View.read_apply]
  show V m c main_arg1 _ = m (c.tc.loc main_arg1) _
  rw [V_main_arg1]
  congr 1
  funext a
  apply Fin.ext
  match a with
  | ⟨0, _⟩ => show win0_1.index t (0 : Fin 4) * 1 + 1 * 0 = b.val; omega
  | ⟨1, _⟩ => show win0_1.index t (1 : Fin 4) * 16 + 1 * w'.val = w.val; omega
  | ⟨2, _⟩ => show win0_1.index t (2 : Fin 4) * 144 + 1 * n.val = n.val; omega
  | ⟨3, _⟩ => show win0_1.index t (3 : Fin 4) * 144 + 1 * k.val = k.val; omega

/-- The bias block at window `w'`, head `h`, query token `n`, key token `k` is the gathered table's row
    `n·144 + k` at window type `w` and head `h`. -/
theorem biasBlock_apply (c : Dev nD) (t : Fin cfg0.N) (w' : Fin 16) (h : Fin 6) (n k : Fin 144) (w : Fin 32)
    (hw : w.val = win0_7.index t (1 : Fin 4) * 16 + w'.val) :
    (iblk m c 2 t : Vec Ideal S16x6x144x144 .bf16) (ix4 w' h n k)
      = gathered (m ((c : Thread nD τ).loc main_arg4)) (m ((c : Thread nD τ).loc main_arg7))
          (ix3 (Cert.Attn.pairPos n k) w h) := by
  obtain ⟨-, -, ⟨e0, e1, e2, e3⟩, -⟩ := index_facts t
  rw [← biasArray_apply m c w h n k]
  unfold iblk
  rw [View.read_apply]
  show V m c main_v10 _ = V m c main_v10 _
  congr 1
  funext a
  apply Fin.ext
  match a with
  | ⟨0, _⟩ => show win0_2.index t (0 : Fin 4) * 16 + 1 * w'.val = w.val; omega
  | ⟨1, _⟩ => show win0_2.index t (1 : Fin 4) * 6 + 1 * h.val = h.val; omega
  | ⟨2, _⟩ => show win0_2.index t (2 : Fin 4) * 144 + 1 * n.val = n.val; omega
  | ⟨3, _⟩ => show win0_2.index t (3 : Fin 4) * 144 + 1 * k.val = k.val; omega

/-- The fused projection's weight block is the weight array. -/
theorem wqkvBlock_apply (c : Dev nD) (t : Fin cfg0.N) (ch : Fin 192) (k : Fin 576) :
    (iblk m c 3 t : Vec Ideal S192x576 .f32) (ix2 ch k)
      = (m ((c : Thread nD τ).loc main_arg2) : S192x576.Idx → EReal) (ix2 ch k) := by
  obtain ⟨-, -, -, ⟨e0, e1⟩, -⟩ := index_facts t
  unfold iblk
  rw [View.read_apply]
  show V m c main_arg2 _ = m (c.tc.loc main_arg2) _
  rw [V_main_arg2]
  congr 1
  funext a
  apply Fin.ext
  match a with
  | ⟨0, _⟩ => show win0_3.index t (0 : Fin 2) * 192 + 1 * ch.val = ch.val; omega
  | ⟨1, _⟩ => show win0_3.index t (1 : Fin 2) * 576 + 1 * k.val = k.val; omega

/-- The fused projection's bias block is the bias array. -/
theorem bqkvBlock_apply (c : Dev nD) (t : Fin cfg0.N) (k : Fin 576) :
    (iblk m c 4 t : Vec Ideal S576 .f32) (ix1 k)
      = (m ((c : Thread nD τ).loc main_arg3) : S576.Idx → EReal) (ix1 k) := by
  obtain ⟨-, -, -, -, e0, -⟩ := index_facts t
  unfold iblk
  rw [View.read_apply]
  show V m c main_arg3 _ = m (c.tc.loc main_arg3) _
  rw [V_main_arg3]
  congr 1
  funext a
  apply Fin.ext
  match a with
  | ⟨0, _⟩ => show win0_4.index t (0 : Fin 1) * 576 + 1 * k.val = k.val; omega

/-- The output projection's weight block is the weight array. -/
theorem wprojBlock_apply (c : Dev nD) (t : Fin cfg0.N) (ch j : Fin 192) :
    (iblk m c 5 t : Vec Ideal S192x192 .f32) (ix2 ch j)
      = (m ((c : Thread nD τ).loc main_arg5) : S192x192.Idx → EReal) (ix2 ch j) := by
  obtain ⟨-, -, -, -, -, ⟨e0, e1⟩, -⟩ := index_facts t
  unfold iblk
  rw [View.read_apply]
  show V m c main_arg5 _ = m (c.tc.loc main_arg5) _
  rw [V_main_arg5]
  congr 1
  funext a
  apply Fin.ext
  match a with
  | ⟨0, _⟩ => show win0_5.index t (0 : Fin 2) * 192 + 1 * ch.val = ch.val; omega
  | ⟨1, _⟩ => show win0_5.index t (1 : Fin 2) * 192 + 1 * j.val = j.val; omega

/-- The output projection's bias block is the bias array. -/
theorem bprojBlock_apply (c : Dev nD) (t : Fin cfg0.N) (j : Fin 192) :
    (iblk m c 6 t : Vec Ideal S192 .f32) (ix1 j)
      = (m ((c : Thread nD τ).loc main_arg6) : S192.Idx → EReal) (ix1 j) := by
  obtain ⟨-, -, -, -, -, -, e0, -⟩ := index_facts t
  unfold iblk
  rw [View.read_apply]
  show V m c main_arg6 _ = m (c.tc.loc main_arg6) _
  rw [V_main_arg6]
  congr 1
  funext a
  apply Fin.ext
  match a with
  | ⟨0, _⟩ => show win0_6.index t (0 : Fin 1) * 192 + 1 * j.val = j.val; omega

/-- So window `w'` of the point's blocks is window `(b, w)` of the arrays. -/
theorem blockWindow_eq (c : Dev nD) (t : Fin cfg0.N) (w' : Fin 16) (b : Fin 30) (w : Fin 32)
    (hb : b.val = win0_7.index t (0 : Fin 4)) (hw : w.val = win0_7.index t (1 : Fin 4) * 16 + w'.val) :
    Cert.Attn.blockWindow (iblk m c 0 t) (iblk m c 1 t) (iblk m c 2 t) (iblk m c 3 t) (iblk m c 4 t) (iblk m c 5 t)
        (iblk m c 6 t) w'
      = Cert.Attn.arrayWindow (m ((c : Thread nD τ).loc main_arg0)) (m ((c : Thread nD τ).loc main_arg1))
          (gathered (m ((c : Thread nD τ).loc main_arg4)) (m ((c : Thread nD τ).loc main_arg7)))
          (m ((c : Thread nD τ).loc main_arg2)) (m ((c : Thread nD τ).loc main_arg3))
          (m ((c : Thread nD τ).loc main_arg5)) (m ((c : Thread nD τ).loc main_arg6)) b w := by
  unfold Cert.Attn.blockWindow Cert.Attn.arrayWindow
  rw [Cert.Attn.Inputs.mk.injEq]
  refine ⟨?_, ?_, ?_, ?_, ?_, ?_, ?_⟩
  · funext n ch; exact actBlock_apply m c t w' n ch b w hb hw
  · funext n k; exact maskBlock_apply m c t w' n k b w hb hw
  · funext h n k; exact biasBlock_apply m c t w' h n k w hw
  · funext ch k; exact wqkvBlock_apply m c t ch k
  · funext k; exact bqkvBlock_apply m c t k
  · funext ch j; exact wprojBlock_apply m c t ch j
  · funext j; exact bprojBlock_apply m c t j

end Cert.KernelAttn

end
-- ==== Proof.KernelArray.lean ====
/-
  The attention kernel's run: the output array is the attention result of the argument arrays.

  The grid's 60 points write 60 blocks `[1, 16, 144, 192]` of the output array `[30, 32, 144, 192]`: the point whose
  block index is `(b, wt, 0, 0)` writes windows `(b, wt·16), …, (b, wt·16 + 15)`.  What a point writes at window
  `w'`, token `n`, channel `j` is the attention result of window `w'` of its input blocks, and that window of the
  blocks is window `(b, wt·16 + w')` of the arrays; so each point writes its block of one function of the argument
  arrays, `Cert.Attn.result`.  The blocks cover the array (index `(b, w, n, j)` lies in the block `(b, w / 16, 0, 0)`),
  so after the run the output array is that function, and the arguments are as launched.
-/
import proofs.«127267_j4844723109913_2_alg».proof.Proof.Gen.KernelIdeal.Value
import proofs.«127267_j4844723109913_2_alg».proof.Proof.KernelBlock
import proofs.«127267_j4844723109913_2_alg».proof.Proof.KernelArrayBlocks

noncomputable section

namespace Cert.KernelAttn

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- What the point `t` writes back is its block of the attention result of the argument arrays. -/
theorem flushed_eq (c : Dev nD) (t : Fin cfg0.N) :
    (dats m 0 c).flushed 7 t = ((cfg0.win 7).blk t).view.read (Elt Ideal)
      (Cert.Attn.result (m ((c : Thread nD τ).loc main_arg0)) (m ((c : Thread nD τ).loc main_arg1))
        (gathered (m ((c : Thread nD τ).loc main_arg4)) (m ((c : Thread nD τ).loc main_arg7)))
        (m ((c : Thread nD τ).loc main_arg2)) (m ((c : Thread nD τ).loc main_arg3))
        (m ((c : Thread nD τ).loc main_arg5)) (m ((c : Thread nD τ).loc main_arg6))) := by
  rw [Cert.KernelIdeal.Value.flushed7]
  funext y
  obtain ⟨a, w', n, j, rfl⟩ : ∃ (a : Fin 1) (w' : Fin 16) (n : Fin 144) (j : Fin 192), y = ix4 a w' n j :=
    ⟨y 0, y 1, y 2, y 3, eq_ix4 y⟩
  obtain rfl : a = 0 := Subsingleton.elim _ _
  obtain ⟨-, -, -, -, -, -, -, ⟨h0, h1, h2, h3⟩⟩ := index_facts t
  show out0_7 (iblk m c 0 t) (iblk m c 1 t) (iblk m c 2 t) (iblk m c 3 t) (iblk m c 4 t) (iblk m c 5 t) (iblk m c 6 t)
      (ix4 0 w' n j) = (Cert.Attn.result (m ((c : Thread nD τ).loc main_arg0)) (m ((c : Thread nD τ).loc main_arg1))
        (gathered (m ((c : Thread nD τ).loc main_arg4)) (m ((c : Thread nD τ).loc main_arg7)))
        (m ((c : Thread nD τ).loc main_arg2)) (m ((c : Thread nD τ).loc main_arg3))
        (m ((c : Thread nD τ).loc main_arg5)) (m ((c : Thread nD τ).loc main_arg6))) (((cfg0.win 7).blk t).view.emb (ix4 0 w' n j))
  refine (block_out _ _ _ _ _ _ _ w' n j).trans ?_
  have hi : ((cfg0.win 7).blk t).view.emb (ix4 0 w' n j)
      = (ix4 ⟨win0_7.index t (0 : Fin 4), by omega⟩ ⟨win0_7.index t (1 : Fin 4) * 16 + w'.val, by have := w'.isLt; omega⟩ n j : S30x32x144x192.Idx) := by
    funext a
    apply Fin.ext
    match a with
    | ⟨0, _⟩ => show win0_7.index t (0 : Fin 4) * 1 + 1 * 0 = win0_7.index t (0 : Fin 4); omega
    | ⟨1, _⟩ => show win0_7.index t (1 : Fin 4) * 16 + 1 * w'.val = win0_7.index t (1 : Fin 4) * 16 + w'.val; omega
    | ⟨2, _⟩ => show win0_7.index t (2 : Fin 4) * 144 + 1 * n.val = n.val; omega
    | ⟨3, _⟩ => show win0_7.index t (3 : Fin 4) * 192 + 1 * j.val = j.val; omega
  rw [hi]
  show Cert.Attn.out _ n j = Cert.Attn.out _ n j
  rw [blockWindow_eq m c t w' ⟨win0_7.index t (0 : Fin 4), by omega⟩
    ⟨win0_7.index t (1 : Fin 4) * 16 + w'.val, by have := w'.isLt; omega⟩ rfl rfl]

/-- An index of the output array is in point `t`'s block iff each coordinate is in the block's range on its axis. -/
theorem mem_block (t : Fin cfg0.N) (i : S30x32x144x192.Idx) :
    i ∈ ((cfg0.win 7).blk t).view.set ↔ ∀ a : Fin 4, win0_7.index t a * S1x16x144x192.size a ≤ (i a).val
      ∧ (i a).val < win0_7.index t a * S1x16x144x192.size a + S1x16x144x192.size a := by
  show i ∈ ((View.whole main_v11).slice (win0_7.rect t)).set ↔ _
  rw [View.set_slice_whole, Rect.mem_set_unit]
  exact Iff.rfl

/-- Every index of the output array is in some point's block: `(b, w, n, j)` in the block `(b, w / 16, 0, 0)`. -/
theorem covered (i : S30x32x144x192.Idx) :
    ∃ t : Fin cfg0.N, (cfg0.win 7).flush t = true ∧ i ∈ ((cfg0.win 7).blk t).view.set := by
  have hi0 : (i 0).val < 30 := (i 0).isLt
  have hi1 : (i 1).val < 32 := (i 1).isLt
  have hi2 : (i 2).val < 144 := (i 2).isLt
  have hi3 : (i 3).val < 192 := (i 3).isLt
  obtain ⟨t, ht⟩ := index_onto ⟨(i 0).val, hi0⟩ ⟨(i 1).val / 16, by omega⟩
  have q0 : win0_7.index t (0 : Fin 4) = (i 0).val := congrFun ht 0
  have q1 : win0_7.index t (1 : Fin 4) = (i 1).val / 16 := congrFun ht 1
  have q2 : win0_7.index t (2 : Fin 4) = 0 := congrFun ht 2
  have q3 : win0_7.index t (3 : Fin 4) = 0 := congrFun ht 3
  refine ⟨t, flush0_7 t, ?_⟩
  rw [mem_block]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 16 ≤ (i 1).val ∧ (i 1).val < win0_7.index t (1 : Fin 4) * 16 + 16; omega
  | ⟨2, _⟩ => show win0_7.index t (2 : Fin 4) * 144 ≤ (i 2).val ∧ (i 2).val < win0_7.index t (2 : Fin 4) * 144 + 144; omega
  | ⟨3, _⟩ => show win0_7.index t (3 : Fin 4) * 192 ≤ (i 3).val ∧ (i 3).val < win0_7.index t (3 : Fin 4) * 192 + 192; omega

/-- So after the grid the output array is the attention result of the argument arrays. -/
theorem final (c : Dev nD) :
    (dats m 0 c).arrAt 7 cfg0.N
      = Cert.Attn.result (m ((c : Thread nD τ).loc main_arg0)) (m ((c : Thread nD τ).loc main_arg1))
        (gathered (m ((c : Thread nD τ).loc main_arg4)) (m ((c : Thread nD τ).loc main_arg7)))
        (m ((c : Thread nD τ).loc main_arg2)) (m ((c : Thread nD τ).loc main_arg3))
        (m ((c : Thread nD τ).loc main_arg5)) (m ((c : Thread nD τ).loc main_arg6)) :=
  (dats m 0 c).arrAt_eq_of_cover 7 _ (fun t _ => flushed_eq m c t) covered

/-- The kernel's run: the output array ends as the attention result of the argument arrays, the bias table gathered
    by the position indices, and the eight arguments are as launched. -/
theorem run : θ_run Cert.KernelIdeal.defs (onTc (τ := τ) (main (F := Ideal))) ⟨m, fun _ => 0, ρ⟩ fun r => ∀ c : Dev nD,
      r.2.mem ((c : Thread nD τ).loc main_v11)
        = Cert.Attn.result (m ((c : Thread nD τ).loc main_arg0)) (m ((c : Thread nD τ).loc main_arg1))
          (gathered (m ((c : Thread nD τ).loc main_arg4)) (m ((c : Thread nD τ).loc main_arg7)))
          (m ((c : Thread nD τ).loc main_arg2)) (m ((c : Thread nD τ).loc main_arg3))
          (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run Cert.KernelIdeal.defs _ _).mono (fun r h c => ⟨(h c).1.trans (final m c), (h c).2⟩)
    (Cert.KernelIdeal.Value.run_blocks m ρ)

end Cert.KernelAttn

end
-- ==== Proof.RefProjection.lean ====
/-
  The reference program's query, key and value arrays, read one element at a time.

  The reference multiplies the activations [30, 32, 144, 192] by the fused weights [192, 576], adds the bias, splits
  the 576 channels as 3 x 6 x 32 (selector, head, coordinate), moves the selector and the head in front and cuts the
  three selector slices; the query slice is then multiplied by the scale.  Element (b, h, w, n, e) of a slice is
  therefore the fused projection of token n of window (b, w) at channel s*192 + h*32 + e, that is `Attn.qkv` of that
  window's inputs at `Attn.chan s h e`.  The only arithmetic is on row-major positions: a reshape keeps the position,
  and both splittings of the position are linear in the coordinates.
-/
import Idealize.ShloMosaic.Lib.ValueIdxRank6
import Idealize.ShloMosaic.Lib.Pipeline.Value
import proofs.«127267_j4844723109913_2_alg».proof.Proof.Gen.ReferenceIdeal.Read
import proofs.«127267_j4844723109913_2_alg».proof.Proof.AttnArrays

noncomputable section

namespace Cert.RefAttn

open Idealize.ShloMosaic Idealize.ShloMosaic.ValueIdx Cert.ReferenceIdeal Cert.ReferenceIdeal.Gen

variable (x0 : (⟨S30x32x144x192, .f32⟩ : BufTy).Contents (Elt Ideal))
  (x1 : (⟨S30x32x144x144, .f32⟩ : BufTy).Contents (Elt Ideal))
  (x2 : (⟨S192x576, .f32⟩ : BufTy).Contents (Elt Ideal))
  (x3 : (⟨S576, .f32⟩ : BufTy).Contents (Elt Ideal))
  (x4 : (⟨S3312x32x6, .f32⟩ : BufTy).Contents (Elt Ideal))
  (x5 : (⟨S192x192, .f32⟩ : BufTy).Contents (Elt Ideal))
  (x6 : (⟨S192, .f32⟩ : BufTy).Contents (Elt Ideal))
  (x7 : (⟨S144x144, .i32⟩ : BufTy).Contents (Elt Ideal))

/-- The inputs of window (b, w): the argument arrays, with the gathered position-bias table as the bias source. -/
abbrev win (b : Fin 30) (w : Fin 32) : Attn.Inputs :=
  Attn.arrayWindow x0 x1 (Read.val_main_v22 (F := Ideal) x4 x7) x2 x3 x5 x6 b w

theorem lidx_v0 (b : Fin 30) (w : Fin 32) (n : Fin 144) (k : Fin 576) (c : Fin 192) :
    Read.lidx_main_v0 (ix4 b w n k) c = ix4 b w n c := by
  funext a; match a with | ⟨0, _⟩ => rfl | ⟨1, _⟩ => rfl | ⟨2, _⟩ => rfl | ⟨3, _⟩ => rfl

theorem ridx_v0 (b : Fin 30) (w : Fin 32) (n : Fin 144) (k : Fin 576) (c : Fin 192) :
    Read.ridx_main_v0 (ix4 b w n k) c = ix2 c k := by
  funext a; match a with | ⟨0, _⟩ => rfl | ⟨1, _⟩ => rfl

theorem idx_v1_v2 (b : Fin 30) (w : Fin 32) (n : Fin 144) (k : Fin 576) :
    Read.idx_main_v1 (Read.idx_main_v2 (ix4 b w n k)) = ix1 k := by
  funext a; match a with | ⟨0, _⟩ => rfl

/-- The fused projection plus its bias, at token n of window (b, w) and channel k. -/
theorem v3_at (b : Fin 30) (w : Fin 32) (n : Fin 144) (k : Fin 576) :
    Read.val_main_v3 (F := Ideal) x0 x2 x3 (ix4 b w n k) = Attn.qkv (win x0 x1 x2 x3 x4 x5 x6 x7 b w) n k := by
  rw [Read.val_main_v3_apply, Read.val_main_v0_apply, Read.val_main_v2_apply, Read.val_main_v1_apply]
  simp only [lidx_v0, ridx_v0, idx_v1_v2]
  rfl

/-- Splitting the 576 channels as 3 x 6 x 32 keeps the row-major position: channel s*192 + h*32 + e. -/
theorem v4_at (b : Fin 30) (w : Fin 32) (n : Fin 144) (s : Fin 3) (h : Fin 6) (e : Fin 32) :
    Read.val_main_v4 (F := Ideal) x0 x2 x3 (ix6 b w n s h e)
      = Read.val_main_v3 (F := Ideal) x0 x2 x3 (ix4 b w n (Attn.chan s h e)) := by
  unfold Read.val_main_v4
  exact shapeCast_apply _ shapeCasts_S30x32x144x576_S30x32x144x3x6x32 (ix6 b w n s h e) (ix4 b w n (Attn.chan s h e))
    (by
      rw [Shape.rowMajor_val_four, Shape.rowMajor_val_six]
      show ((b.val * 32 + w.val) * 144 + n.val) * 576 + (s.val * 192 + h.val * 32 + e.val)
        = ((((b.val * 32 + w.val) * 144 + n.val) * 3 + s.val) * 6 + h.val) * 32 + e.val
      omega)

theorem v5_at (b : Fin 30) (w : Fin 32) (n : Fin 144) (s : Fin 3) (h : Fin 6) (e : Fin 32) :
    Read.val_main_v5 (F := Ideal) x0 x2 x3 (ix6 s b h w n e) = Read.val_main_v4 (F := Ideal) x0 x2 x3 (ix6 b w n s h e) := by
  rw [Read.val_main_v5_apply]
  refine congrArg _ (funext fun a => ?_)
  match a with | ⟨0, _⟩ => rfl | ⟨1, _⟩ => rfl | ⟨2, _⟩ => rfl | ⟨3, _⟩ => rfl | ⟨4, _⟩ => rfl | ⟨5, _⟩ => rfl

theorem v6_at (b : Fin 30) (w : Fin 32) (n : Fin 144) (h : Fin 6) (e : Fin 32) :
    Read.val_main_v6 (F := Ideal) x0 x2 x3 (ix6 (0 : Fin 1) b h w n e) = Read.val_main_v5 (F := Ideal) x0 x2 x3 (ix6 (0 : Fin 3) b h w n e) := by
  rw [Read.val_main_v6_apply]
  refine congrArg _ (funext fun a => Fin.ext ?_)
  match a with | ⟨0, _⟩ => rfl | ⟨1, _⟩ => rfl | ⟨2, _⟩ => rfl | ⟨3, _⟩ => rfl | ⟨4, _⟩ => rfl | ⟨5, _⟩ => rfl

theorem v10_at (b : Fin 30) (w : Fin 32) (n : Fin 144) (h : Fin 6) (e : Fin 32) :
    Read.val_main_v10 (F := Ideal) x0 x2 x3 (ix6 (0 : Fin 1) b h w n e) = Read.val_main_v5 (F := Ideal) x0 x2 x3 (ix6 (1 : Fin 3) b h w n e) := by
  rw [Read.val_main_v10_apply]
  refine congrArg _ (funext fun a => Fin.ext ?_)
  match a with | ⟨0, _⟩ => rfl | ⟨1, _⟩ => rfl | ⟨2, _⟩ => rfl | ⟨3, _⟩ => rfl | ⟨4, _⟩ => rfl | ⟨5, _⟩ => rfl

theorem v12_at (b : Fin 30) (w : Fin 32) (n : Fin 144) (h : Fin 6) (e : Fin 32) :
    Read.val_main_v12 (F := Ideal) x0 x2 x3 (ix6 (0 : Fin 1) b h w n e) = Read.val_main_v5 (F := Ideal) x0 x2 x3 (ix6 (2 : Fin 3) b h w n e) := by
  rw [Read.val_main_v12_apply]
  refine congrArg _ (funext fun a => Fin.ext ?_)
  match a with | ⟨0, _⟩ => rfl | ⟨1, _⟩ => rfl | ⟨2, _⟩ => rfl | ⟨3, _⟩ => rfl | ⟨4, _⟩ => rfl | ⟨5, _⟩ => rfl

/-- Dropping the leading unit axis of a [1, 30, 6, 32, 144, 32] array keeps the row-major position. -/
theorem dropUnit_at (y : S1x30x6x32x144x32.Idx → EReal) (b : Fin 30) (w : Fin 32) (n : Fin 144) (h : Fin 6) (e : Fin 32) :
    shapeCast S30x6x32x144x32 y shapeCasts_S1x30x6x32x144x32_S30x6x32x144x32 (ix5 b h w n e) = y (ix6 (0 : Fin 1) b h w n e) :=
  shapeCast_apply y shapeCasts_S1x30x6x32x144x32_S30x6x32x144x32 (ix5 b h w n e) (ix6 (0 : Fin 1) b h w n e)
    (by
      rw [Shape.rowMajor_val_five, Shape.rowMajor_val_six]
      show (((((0 : Nat) * 30 + b.val) * 6 + h.val) * 32 + w.val) * 144 + n.val) * 32 + e.val
        = (((b.val * 6 + h.val) * 32 + w.val) * 144 + n.val) * 32 + e.val
      omega)

/-- The query of head h at token n, coordinate e, already scaled. -/
theorem q_at (b : Fin 30) (w : Fin 32) (n : Fin 144) (h : Fin 6) (e : Fin 32) :
    Read.val_main_v9 (F := Ideal) x0 x2 x3 (ix5 b h w n e)
      = Attn.qkv (win x0 x1 x2 x3 x4 x5 x6 x7 b w) n (Attn.chan 0 h e) * Attn.scale := by
  rw [Read.val_main_v9_apply, Read.val_main_v8_apply, Read.val_main_cst_apply]
  unfold Read.val_main_v7
  rw [dropUnit_at, v6_at, v5_at, v4_at, v3_at x0 x1 x2 x3 x4 x5 x6 x7]
  rfl

/-- The key of head h at token n, coordinate e. -/
theorem k_at (b : Fin 30) (w : Fin 32) (n : Fin 144) (h : Fin 6) (e : Fin 32) :
    Read.val_main_v11 (F := Ideal) x0 x2 x3 (ix5 b h w n e)
      = Attn.qkv (win x0 x1 x2 x3 x4 x5 x6 x7 b w) n (Attn.chan 1 h e) := by
  unfold Read.val_main_v11
  rw [dropUnit_at, v10_at, v5_at, v4_at, v3_at x0 x1 x2 x3 x4 x5 x6 x7]

/-- The value of head h at token n, coordinate e. -/
theorem v_at (b : Fin 30) (w : Fin 32) (n : Fin 144) (h : Fin 6) (e : Fin 32) :
    Read.val_main_v13 (F := Ideal) x0 x2 x3 (ix5 b h w n e)
      = Attn.qkv (win x0 x1 x2 x3 x4 x5 x6 x7 b w) n (Attn.chan 2 h e) := by
  unfold Read.val_main_v13
  rw [dropUnit_at, v12_at, v5_at, v4_at, v3_at x0 x1 x2 x3 x4 x5 x6 x7]

end Cert.RefAttn
-- ==== Proof.RefScore.lean ====
/-
  The reference program's attention scores, read one element at a time.

  For window (b, w), head h, query token n and key token m the reference takes the inner product over the 32
  coordinates of the scaled query and the key, adds the position bias and then the mask.  The position bias comes from
  the gathered table [20736, 32, 6]: its rows are split as 144 x 144, the axes are reordered to (head, window type,
  n, m) and the result is repeated over b, so the entry used is row n*144 + m at window type w and head h.  The mask
  [30, 32, 144, 144] is repeated over the heads.  The rank-6 reshapes around the mask addition only add and drop a
  leading unit axis.  Together this is `Attn.score` of the window's inputs.
-/
import Idealize.ShloMosaic.Lib.ValueIdxRank6
import Idealize.ShloMosaic.Lib.Pipeline.Value
import proofs.«127267_j4844723109913_2_alg».proof.Proof.Gen.ReferenceIdeal.Read
import proofs.«127267_j4844723109913_2_alg».proof.Proof.AttnArrays
import proofs.«127267_j4844723109913_2_alg».proof.Proof.RefProjection

noncomputable section

namespace Cert.RefAttn

open Idealize.ShloMosaic Idealize.ShloMosaic.ValueIdx Cert.ReferenceIdeal Cert.ReferenceIdeal.Gen

variable (x0 : (⟨S30x32x144x192, .f32⟩ : BufTy).Contents (Elt Ideal))
  (x1 : (⟨S30x32x144x144, .f32⟩ : BufTy).Contents (Elt Ideal))
  (x2 : (⟨S192x576, .f32⟩ : BufTy).Contents (Elt Ideal))
  (x3 : (⟨S576, .f32⟩ : BufTy).Contents (Elt Ideal))
  (x4 : (⟨S3312x32x6, .f32⟩ : BufTy).Contents (Elt Ideal))
  (x5 : (⟨S192x192, .f32⟩ : BufTy).Contents (Elt Ideal))
  (x6 : (⟨S192, .f32⟩ : BufTy).Contents (Elt Ideal))
  (x7 : (⟨S144x144, .i32⟩ : BufTy).Contents (Elt Ideal))

theorem lidx_v14 (b : Fin 30) (h : Fin 6) (w : Fin 32) (n m : Fin 144) (e : Fin 32) :
    Read.lidx_main_v14 (ix5 b h w n m) e = ix5 b h w n e := by
  funext a; match a with | ⟨0, _⟩ => rfl | ⟨1, _⟩ => rfl | ⟨2, _⟩ => rfl | ⟨3, _⟩ => rfl | ⟨4, _⟩ => rfl

theorem ridx_v14 (b : Fin 30) (h : Fin 6) (w : Fin 32) (n m : Fin 144) (e : Fin 32) :
    Read.ridx_main_v14 (ix5 b h w n m) e = ix5 b h w m e := by
  funext a; match a with | ⟨0, _⟩ => rfl | ⟨1, _⟩ => rfl | ⟨2, _⟩ => rfl | ⟨3, _⟩ => rfl | ⟨4, _⟩ => rfl

/-- The scaled inner product of query token n and key token m of head h. -/
theorem v14_at (b : Fin 30) (h : Fin 6) (w : Fin 32) (n m : Fin 144) :
    Read.val_main_v14 (F := Ideal) x0 x2 x3 (ix5 b h w n m)
      = ∑ e : Fin 32, (Attn.qkv (win x0 x1 x2 x3 x4 x5 x6 x7 b w) n (Attn.chan 0 h e) * Attn.scale)
          * Attn.qkv (win x0 x1 x2 x3 x4 x5 x6 x7 b w) m (Attn.chan 1 h e) := by
  rw [Read.val_main_v14_apply]
  simp only [lidx_v14, ridx_v14, q_at x0 x1 x2 x3 x4 x5 x6 x7, k_at x0 x1 x2 x3 x4 x5 x6 x7]

/-- The position bias added to the scores: row n*144 + m of the gathered table, at window type w and head h.  The
    table's rows are split as 144 x 144, the axes reordered to (head, type, n, m) and the result repeated over b. -/
theorem v26_at (b : Fin 30) (h : Fin 6) (w : Fin 32) (n m : Fin 144) :
    Read.val_main_v26 (F := Ideal) x4 x7 (ix5 b h w n m)
      = Read.val_main_v22 (F := Ideal) x4 x7 (ix3 (Attn.pairPos n m) w h) := by
  rw [Read.val_main_v26_apply, Read.val_main_v25_apply, Read.val_main_v24_apply, Read.val_main_v23_apply]
  refine congrArg _ (funext fun a => Fin.ext ?_)
  have hh := h.isLt; have hw := w.isLt; have hn := n.isLt; have hm := m.isLt
  match a with
  | ⟨0, _⟩ =>
    show (((n.val * 144 + m.val) * 32 + w.val) * 6 + h.val) / 192 = n.val * 144 + m.val
    omega
  | ⟨1, _⟩ =>
    show (((n.val * 144 + m.val) * 32 + w.val) * 6 + h.val) / 6 % 32 = w.val
    omega
  | ⟨2, _⟩ =>
    show (((n.val * 144 + m.val) * 32 + w.val) * 6 + h.val) % 6 = h.val
    omega

/-- Adding a leading unit axis to a [30, 6, 32, 144, 144] array keeps the row-major position. -/
theorem addUnit_at (y : S30x6x32x144x144.Idx → EReal) (b : Fin 30) (h : Fin 6) (w : Fin 32) (n m : Fin 144) :
    shapeCast S1x30x6x32x144x144 y shapeCasts_S30x6x32x144x144_S1x30x6x32x144x144 (ix6 (0 : Fin 1) b h w n m) = y (ix5 b h w n m) :=
  shapeCast_apply y shapeCasts_S30x6x32x144x144_S1x30x6x32x144x144 (ix6 (0 : Fin 1) b h w n m) (ix5 b h w n m)
    (by
      rw [Shape.rowMajor_val_five, Shape.rowMajor_val_six]
      show (((b.val * 6 + h.val) * 32 + w.val) * 144 + n.val) * 144 + m.val
        = (((((0 : Nat) * 30 + b.val) * 6 + h.val) * 32 + w.val) * 144 + n.val) * 144 + m.val
      omega)

/-- Dropping the leading unit axis again. -/
theorem dropUnit144_at (y : S1x30x6x32x144x144.Idx → EReal) (b : Fin 30) (h : Fin 6) (w : Fin 32) (n m : Fin 144) :
    shapeCast S30x6x32x144x144 y shapeCasts_S1x30x6x32x144x144_S30x6x32x144x144 (ix5 b h w n m) = y (ix6 (0 : Fin 1) b h w n m) :=
  shapeCast_apply y shapeCasts_S1x30x6x32x144x144_S30x6x32x144x144 (ix5 b h w n m) (ix6 (0 : Fin 1) b h w n m)
    (by
      rw [Shape.rowMajor_val_five, Shape.rowMajor_val_six]
      show (((((0 : Nat) * 30 + b.val) * 6 + h.val) * 32 + w.val) * 144 + n.val) * 144 + m.val
        = (((b.val * 6 + h.val) * 32 + w.val) * 144 + n.val) * 144 + m.val
      omega)

/-- The mask of window (b, w), repeated over the heads. -/
theorem v30_at (b : Fin 30) (h : Fin 6) (w : Fin 32) (n m : Fin 144) :
    Read.val_main_v30 (F := Ideal) x1 (ix6 (0 : Fin 1) b h w n m) = x1 (ix4 b w n m) := by
  rw [Read.val_main_v30_apply, Read.val_main_v29_apply]
  refine congrArg _ (funext fun a => ?_)
  match a with | ⟨0, _⟩ => rfl | ⟨1, _⟩ => rfl | ⟨2, _⟩ => rfl | ⟨3, _⟩ => rfl

/-- The masked, biased score of head h, query token n, key token m in window (b, w). -/
theorem score_at (b : Fin 30) (h : Fin 6) (w : Fin 32) (n m : Fin 144) :
    Read.val_main_v32 (F := Ideal) x0 x1 x2 x3 x4 x7 (ix5 b h w n m)
      = Attn.score (win x0 x1 x2 x3 x4 x5 x6 x7 b w) h n m := by
  unfold Read.val_main_v32
  rw [dropUnit144_at, Read.val_main_v31_apply, v30_at]
  unfold Read.val_main_v28
  rw [addUnit_at, Read.val_main_v27_apply, v14_at x0 x1 x2 x3 x4 x5 x6 x7, v26_at]
  rfl

end Cert.RefAttn
-- ==== Proof.RefSoftmax.lean ====
/-
  The reference program's softmax, read one element at a time.

  For each row (b, h, w, n) of scores the reference folds the maximum over the 144 key tokens from minus infinity,
  takes the maximum with minus infinity once more, subtracts it from every score of the row, exponentiates, sums the
  row from zero, and divides every weight by the sum.  A maximum is commutative and associative, so the reduction is
  the fold of `max` over the row in any order; the sum's zero start adds nothing.  These are `Attn.rowMax`,
  `Attn.weight` and `Attn.prob` of the window's inputs.
-/
import Idealize.ShloMosaic.Lib.ValueIdxRank6
import Idealize.ShloMosaic.Lib.Pipeline.Value
import proofs.«127267_j4844723109913_2_alg».proof.Proof.Gen.ReferenceIdeal.Read
import proofs.«127267_j4844723109913_2_alg».proof.Proof.AttnArrays
import proofs.«127267_j4844723109913_2_alg».proof.Proof.RefScore

noncomputable section

namespace Cert.RefAttn

open Idealize.ShloMosaic Idealize.ShloMosaic.ValueIdx Cert.ReferenceIdeal Cert.ReferenceIdeal.Gen

variable (x0 : (⟨S30x32x144x192, .f32⟩ : BufTy).Contents (Elt Ideal))
  (x1 : (⟨S30x32x144x144, .f32⟩ : BufTy).Contents (Elt Ideal))
  (x2 : (⟨S192x576, .f32⟩ : BufTy).Contents (Elt Ideal))
  (x3 : (⟨S576, .f32⟩ : BufTy).Contents (Elt Ideal))
  (x4 : (⟨S3312x32x6, .f32⟩ : BufTy).Contents (Elt Ideal))
  (x5 : (⟨S192x192, .f32⟩ : BufTy).Contents (Elt Ideal))
  (x6 : (⟨S192, .f32⟩ : BufTy).Contents (Elt Ideal))
  (x7 : (⟨S144x144, .i32⟩ : BufTy).Contents (Elt Ideal))

/-- Dropping the last axis of [30, 6, 32, 144, 144] leaves [30, 6, 32, 144]. -/
theorem reduces_d4 : S30x6x32x144x144.Reduces [4] S30x6x32x144 := by decide

/-- Putting key token m back after the kept coordinates (b, h, w, n) gives (b, h, w, n, m). -/
theorem lift_d4 (b : Fin 30) (h : Fin 6) (w : Fin 32) (n : Fin 144) (m : Fin 144) :
    reduces_d4.lift (ix4 b h w n) m = ix5 b h w n m := by
  funext c; apply Fin.ext
  match c with | ⟨0, _⟩ => rfl | ⟨1, _⟩ => rfl | ⟨2, _⟩ => rfl | ⟨3, _⟩ => rfl | ⟨4, _⟩ => rfl

/-- The reduction with a maximum body from minus infinity over the key tokens: the fold of `max` over the row. -/
theorem v33_at (b : Fin 30) (h : Fin 6) (w : Fin 32) (n : Fin 144) :
    Read.val_main_v33 (F := Ideal) x0 x1 x2 x3 x4 x7 (ix4 b h w n)
      = (Finset.univ : Finset (Fin 144)).fold max Attn.negInf
          (fun m => Attn.score (win x0 x1 x2 x3 x4 x5 x6 x7 b w) h n m) := by
  unfold Read.val_main_v33
  rw [Host.reduce_eq_fold_single FloatOps.maximumf _ _ reducesTo_S30x6x32x144x144_S30x6x32x144_d4 reduces_d4 h_S_]
  have hf : (Read.val_main_v32 (F := Ideal) x0 x1 x2 x3 x4 x7 ∘ reduces_d4.lift (ix4 b h w n))
      = fun m : Fin 144 => Attn.score (win x0 x1 x2 x3 x4 x5 x6 x7 b w) h n m :=
    funext fun (m : Fin 144) =>
      (congrArg (Read.val_main_v32 (F := Ideal) x0 x1 x2 x3 x4 x7) (lift_d4 b h w n m)).trans
        (score_at x0 x1 x2 x3 x4 x5 x6 x7 b h w n m)
  rw [hf]
  rfl

/-- The row maximum, taken once more against minus infinity. -/
theorem rowMax_at (b : Fin 30) (h : Fin 6) (w : Fin 32) (n : Fin 144) :
    Read.val_main_v35 (F := Ideal) x0 x1 x2 x3 x4 x7 (ix4 b h w n)
      = Attn.rowMax (win x0 x1 x2 x3 x4 x5 x6 x7 b w) h n := by
  rw [Read.val_main_v35_apply, Read.val_main_v34_apply, Read.val_main_cst_2_apply, v33_at x0 x1 x2 x3 x4 x5 x6 x7]
  rfl

theorem idx_v36_v37 (b : Fin 30) (h : Fin 6) (w : Fin 32) (n m : Fin 144) :
    Read.idx_main_v36 (Read.idx_main_v37 (ix5 b h w n m)) = ix4 b h w n := by
  funext a; match a with | ⟨0, _⟩ => rfl | ⟨1, _⟩ => rfl | ⟨2, _⟩ => rfl | ⟨3, _⟩ => rfl

/-- The exponential of the score minus the row maximum. -/
theorem weight_at (b : Fin 30) (h : Fin 6) (w : Fin 32) (n m : Fin 144) :
    Read.val_main_v39 (F := Ideal) x0 x1 x2 x3 x4 x7 (ix5 b h w n m)
      = Attn.weight (win x0 x1 x2 x3 x4 x5 x6 x7 b w) h n m := by
  rw [Read.val_main_v39_apply, Read.val_main_v38_apply, Read.val_main_v37_apply, Read.val_main_v36_apply, idx_v36_v37,
    score_at x0 x1 x2 x3 x4 x5 x6 x7, rowMax_at x0 x1 x2 x3 x4 x5 x6 x7]
  rfl

theorem idx_v40 (b : Fin 30) (h : Fin 6) (w : Fin 32) (n m : Fin 144) :
    Read.idx_main_v40 (ix4 b h w n) m = ix5 b h w n m := by
  funext a; match a with | ⟨0, _⟩ => rfl | ⟨1, _⟩ => rfl | ⟨2, _⟩ => rfl | ⟨3, _⟩ => rfl | ⟨4, _⟩ => rfl

/-- The sum of a row's weights; the reduction starts from zero, which adds nothing. -/
theorem weightSum_at (b : Fin 30) (h : Fin 6) (w : Fin 32) (n : Fin 144) :
    Read.val_main_v40 (F := Ideal) x0 x1 x2 x3 x4 x7 (ix4 b h w n)
      = ∑ m : Fin 144, Attn.weight (win x0 x1 x2 x3 x4 x5 x6 x7 b w) h n m := by
  rw [Read.val_main_v40_apply, Read.val_main_cst_3_apply]
  simp only [idx_v40, weight_at x0 x1 x2 x3 x4 x5 x6 x7]
  show Ideal.ofBits .f32 0x00000000#32 + _ = _
  rw [Ideal.ofBits_zero_f32, zero_add]

theorem idx_v41_v42 (b : Fin 30) (h : Fin 6) (w : Fin 32) (n m : Fin 144) :
    Read.idx_main_v41 (Read.idx_main_v42 (ix5 b h w n m)) = ix4 b h w n := by
  funext a; match a with | ⟨0, _⟩ => rfl | ⟨1, _⟩ => rfl | ⟨2, _⟩ => rfl | ⟨3, _⟩ => rfl

/-- The softmax probability: the weight divided by the row's sum. -/
theorem prob_at (b : Fin 30) (h : Fin 6) (w : Fin 32) (n m : Fin 144) :
    Read.val_main_v43 (F := Ideal) x0 x1 x2 x3 x4 x7 (ix5 b h w n m)
      = Attn.prob (win x0 x1 x2 x3 x4 x5 x6 x7 b w) h n m := by
  rw [Read.val_main_v43_apply, Read.val_main_v42_apply, Read.val_main_v41_apply, idx_v41_v42,
    weight_at x0 x1 x2 x3 x4 x5 x6 x7, weightSum_at x0 x1 x2 x3 x4 x5 x6 x7]
  rfl

end Cert.RefAttn
-- ==== Proof.RefResult.lean ====
/-
  The reference program's result is the window attention of its arguments.

  After the softmax the reference takes, per head, the probability-weighted sum of the value tokens, moves the head
  axis next to the coordinate axis and merges the two into 192 channels (channel c is head c / 32, coordinate c % 32),
  multiplies by the output weights [192, 192] and adds the output bias.  With the earlier stages (projection, scores,
  softmax) this is `Attn.out` of the inputs of window (b, w) at token n and channel j, for every index (b, w, n, j) of
  the result: the whole array is `Attn.result` of the argument arrays, with the position bias read from the gathered
  table, which is left as the program computes it.
-/
import Idealize.ShloMosaic.Lib.ValueIdxRank6
import Idealize.ShloMosaic.Lib.Pipeline.Value
import proofs.«127267_j4844723109913_2_alg».proof.Proof.Gen.ReferenceIdeal.Read
import proofs.«127267_j4844723109913_2_alg».proof.Proof.AttnArrays
import proofs.«127267_j4844723109913_2_alg».proof.Proof.RefSoftmax

noncomputable section

namespace Cert.RefAttn

open Idealize.ShloMosaic Idealize.ShloMosaic.ValueIdx Cert.ReferenceIdeal Cert.ReferenceIdeal.Gen

variable (x0 : (⟨S30x32x144x192, .f32⟩ : BufTy).Contents (Elt Ideal))
  (x1 : (⟨S30x32x144x144, .f32⟩ : BufTy).Contents (Elt Ideal))
  (x2 : (⟨S192x576, .f32⟩ : BufTy).Contents (Elt Ideal))
  (x3 : (⟨S576, .f32⟩ : BufTy).Contents (Elt Ideal))
  (x4 : (⟨S3312x32x6, .f32⟩ : BufTy).Contents (Elt Ideal))
  (x5 : (⟨S192x192, .f32⟩ : BufTy).Contents (Elt Ideal))
  (x6 : (⟨S192, .f32⟩ : BufTy).Contents (Elt Ideal))
  (x7 : (⟨S144x144, .i32⟩ : BufTy).Contents (Elt Ideal))

theorem lidx_v44 (b : Fin 30) (h : Fin 6) (w : Fin 32) (n : Fin 144) (e : Fin 32) (m : Fin 144) :
    Read.lidx_main_v44 (ix5 b h w n e) m = ix5 b h w n m := by
  funext a; match a with | ⟨0, _⟩ => rfl | ⟨1, _⟩ => rfl | ⟨2, _⟩ => rfl | ⟨3, _⟩ => rfl | ⟨4, _⟩ => rfl

theorem ridx_v44 (b : Fin 30) (h : Fin 6) (w : Fin 32) (n : Fin 144) (e : Fin 32) (m : Fin 144) :
    Read.ridx_main_v44 (ix5 b h w n e) m = ix5 b h w m e := by
  funext a; match a with | ⟨0, _⟩ => rfl | ⟨1, _⟩ => rfl | ⟨2, _⟩ => rfl | ⟨3, _⟩ => rfl | ⟨4, _⟩ => rfl

/-- Head h's output at token n, coordinate e: the probability-weighted sum of the value tokens. -/
theorem mix_at (b : Fin 30) (h : Fin 6) (w : Fin 32) (n : Fin 144) (e : Fin 32) :
    Read.val_main_v44 (F := Ideal) x0 x1 x2 x3 x4 x7 (ix5 b h w n e)
      = Attn.mix (win x0 x1 x2 x3 x4 x5 x6 x7 b w) h n e := by
  rw [Read.val_main_v44_apply]
  simp only [lidx_v44, ridx_v44, prob_at x0 x1 x2 x3 x4 x5 x6 x7, v_at x0 x1 x2 x3 x4 x5 x6 x7]
  rfl

/-- Channel c of the 192 concatenated head outputs sits at head c / 32, coordinate c % 32: the heads are moved next to
    their coordinates and the two axes merged, which keeps the row-major position. -/
theorem idx_v45_v46 (b : Fin 30) (w : Fin 32) (n : Fin 144) (c : Fin 192) :
    Read.idx_main_v45 (Read.idx_main_v46 (ix4 b w n c)) = ix5 b (Attn.headOf c) w n (Attn.laneOf c) := by
  funext a; apply Fin.ext
  have hb := b.isLt; have hw := w.isLt; have hn := n.isLt; have hc := c.isLt
  match a with
  | ⟨0, _⟩ =>
    show (((b.val * 32 + w.val) * 144 + n.val) * 192 + c.val) / 884736 = b.val
    omega
  | ⟨1, _⟩ =>
    show (((b.val * 32 + w.val) * 144 + n.val) * 192 + c.val) / 32 % 6 = c.val / 32
    omega
  | ⟨2, _⟩ =>
    show (((b.val * 32 + w.val) * 144 + n.val) * 192 + c.val) / 27648 % 32 = w.val
    omega
  | ⟨3, _⟩ =>
    show (((b.val * 32 + w.val) * 144 + n.val) * 192 + c.val) / 192 % 144 = n.val
    omega
  | ⟨4, _⟩ =>
    show (((b.val * 32 + w.val) * 144 + n.val) * 192 + c.val) % 32 = c.val % 32
    omega

/-- The concatenated head outputs of window (b, w) at token n, channel c. -/
theorem v46_at (b : Fin 30) (w : Fin 32) (n : Fin 144) (c : Fin 192) :
    Read.val_main_v46 (F := Ideal) x0 x1 x2 x3 x4 x7 (ix4 b w n c)
      = Attn.mix (win x0 x1 x2 x3 x4 x5 x6 x7 b w) (Attn.headOf c) n (Attn.laneOf c) := by
  rw [Read.val_main_v46_apply, Read.val_main_v45_apply, idx_v45_v46, mix_at x0 x1 x2 x3 x4 x5 x6 x7]

theorem lidx_v47 (b : Fin 30) (w : Fin 32) (n : Fin 144) (j c : Fin 192) :
    Read.lidx_main_v47 (ix4 b w n j) c = ix4 b w n c := by
  funext a; match a with | ⟨0, _⟩ => rfl | ⟨1, _⟩ => rfl | ⟨2, _⟩ => rfl | ⟨3, _⟩ => rfl

theorem ridx_v47 (b : Fin 30) (w : Fin 32) (n : Fin 144) (j c : Fin 192) :
    Read.ridx_main_v47 (ix4 b w n j) c = ix2 c j := by
  funext a; match a with | ⟨0, _⟩ => rfl | ⟨1, _⟩ => rfl

theorem idx_v48_v49 (b : Fin 30) (w : Fin 32) (n : Fin 144) (j : Fin 192) :
    Read.idx_main_v48 (Read.idx_main_v49 (ix4 b w n j)) = ix1 j := by
  funext a; match a with | ⟨0, _⟩ => rfl

/-- The output projection plus its bias: the result of window (b, w) at token n, channel j. -/
theorem out_at (b : Fin 30) (w : Fin 32) (n : Fin 144) (j : Fin 192) :
    Read.val_main_v50 (F := Ideal) x0 x1 x2 x3 x4 x5 x6 x7 (ix4 b w n j)
      = Attn.out (win x0 x1 x2 x3 x4 x5 x6 x7 b w) n j := by
  rw [Read.val_main_v50_apply, Read.val_main_v47_apply, Read.val_main_v49_apply, Read.val_main_v48_apply]
  simp only [lidx_v47, ridx_v47, idx_v48_v49, v46_at x0 x1 x2 x3 x4 x5 x6 x7]
  rfl

/-- THE REFERENCE SIDE: the reference program's result array is, index by index, the window attention of the argument
    arrays, the position bias read from the gathered table. -/
theorem ref_result :
    Read.val_main_v50 (F := Ideal) x0 x1 x2 x3 x4 x5 x6 x7
      = Attn.result x0 x1 (Read.val_main_v22 (F := Ideal) x4 x7) x2 x3 x5 x6 := by
  funext i
  obtain ⟨b, w, n, j, rfl⟩ : ∃ (b : Fin 30) (w : Fin 32) (n : Fin 144) (j : Fin 192), i = ix4 b w n j :=
    ⟨i 0, i 1, i 2, i 3, eq_ix4 i⟩
  rw [out_at]
  rfl

end Cert.RefAttn
-- ==== Proof.lean ====
/-
  Windowed multi-head attention: on the extended reals the kernel and the reference compute the same array.

  The claim has five parts.  Three say that a program runs to its end and leaves its eight argument arrays as they
  were launched: for the kernel as compiled and for the kernel read on the extended reals these are the generated frame
  theorems, for the reference read on the extended reals it is the generated run of its 57 host operations.  The
  fourth says that reading the kernel on the extended reals rewrote none of its operations, which holds trivially.

  The fifth is the equality of the two results, from memories that agree on the arguments.  The activations
  [30, 32, 144, 192] are 30 x 32 windows of 144 tokens with 192 channels.  `Cert.Attn.result` (AttnWindow.lean,
  AttnArrays.lean) is, window by window, the output projection of the six heads' attention: the fused projection to
  queries, keys and values, the scaled scores plus position bias plus mask, the softmax with the row maximum
  subtracted, the probability-weighted sum of the values, and the projection of the six heads side by side.  The
  kernel's run ends with its output array equal to that function of its arguments, the position bias taken from the
  bias table gathered by the position indices (KernelArray.lean); the reference's result is the same function of its
  arguments and of its own gathered table (RefResult.lean).  Both gathered tables are the same host operations on the
  same two arrays (the position indices flattened, a negative index moved up by 3312, each index looked up in the bias
  table), so they are equal by unfolding, and the two results are one term.
-/
import proofs.«127267_j4844723109913_2_alg».proof.Defs
import proofs.«127267_j4844723109913_2_alg».proof.Proof.Gen.Kernel
import proofs.«127267_j4844723109913_2_alg».proof.Proof.Gen.Kernel.Frame
import proofs.«127267_j4844723109913_2_alg».proof.Proof.Gen.KernelIdeal
import proofs.«127267_j4844723109913_2_alg».proof.Proof.Gen.KernelIdeal.Frame
import proofs.«127267_j4844723109913_2_alg».proof.Proof.Gen.ReferenceIdeal
import proofs.«127267_j4844723109913_2_alg».proof.Proof.Gen.ReferenceIdeal.Run
import proofs.«127267_j4844723109913_2_alg».proof.Proof.Gen.ReferenceIdeal.Read
import proofs.«127267_j4844723109913_2_alg».proof.Proof.Gen.Pre_finite_inputs
import proofs.«127267_j4844723109913_2_alg».proof.Proof.KernelArray
import proofs.«127267_j4844723109913_2_alg».proof.Proof.RefResult

noncomputable section

namespace Cert.Proof

open Idealize.ShloMosaic Idealize.ShloMosaic.TcCoe Idealize.SL.Sem

/-- The gathered position-bias table is the same array in both programs: each flattens the position indices, moves
    a negative index up by 3312 and looks every index up in the bias table. -/
theorem gathered_eq (a4 : (⟨Cert.KernelIdeal.S3312x32x6, .f32⟩ : BufTy).Contents (Elt Ideal))
    (a7 : (⟨Cert.KernelIdeal.S144x144, .i32⟩ : BufTy).Contents (Elt Ideal)) :
    Cert.KernelAttn.gathered a4 a7 = Cert.ReferenceIdeal.Read.val_main_v22 (F := Ideal) a4 a7 := rfl

/-- The kernel as compiled runs to its end and leaves its arguments as launched. -/
theorem frame_Kernel : Cert.frame_Kernel := fun m ρ _ => Cert.Kernel.Gen.frame m ρ

/-- So does the kernel read on the extended reals. -/
theorem frame_KernelIdeal : Cert.frame_KernelIdeal := fun m ρ _ => Cert.KernelIdeal.Gen.frame m ρ

/-- So does the reference: its run states the result and the unchanged arguments, of which the latter are kept. -/
theorem frame_ReferenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals. -/
theorem preserves : Cert.preserves_Kernel_KernelIdeal := trivial

/-- From memories that agree on the arguments both programs end with the attention result of those arguments. -/
theorem algebraic : Cert.algebraic_KernelIdeal_ReferenceIdeal := by
  intro m ρ m' ρ' _ hagree
  refine ⟨_, Cert.KernelAttn.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, Cert.RefAttn.ref_result, (hagree c).1, (hagree c).2.1, (hagree c).2.2.1,
    (hagree c).2.2.2.1, (hagree c).2.2.2.2.1, (hagree c).2.2.2.2.2.1, (hagree c).2.2.2.2.2.2.1, (hagree c).2.2.2.2.2.2.2]
  rfl

theorem claim : Cert.Claim := ⟨Cert.Kernel.Gen.facts, Cert.KernelIdeal.Gen.facts, Cert.ReferenceIdeal.Gen.facts,
  Cert.Pre_finite_inputs.Gen.facts, frame_Kernel, frame_KernelIdeal, frame_ReferenceIdeal, preserves, algebraic⟩

end Cert.Proof

end
